-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x3 : Shape := ⟨3, ![8, 4096, 3]⟩
abbrev S8 : Shape := ⟨1, ![8]⟩
abbrev S_ : Shape := ⟨0, ![]⟩

class Facts : Prop where
  bcast_S_S8x4096x3 : S_.BroadcastsInDim S8x4096x3 (![] : Fin 0 → Fin S8x4096x3.rank)
  reducesTo_S8x4096x3_S_d0_1_2 : S8x4096x3.ReducesTo [0, 1, 2] S_
  h_S_ : 0 < S_.numel
  bcast_S_S8 : S_.BroadcastsInDim S8 (![] : Fin 0 → Fin S8.rank)
  reducesTo_S8_S_d0 : S8.ReducesTo [0] S_

variable [Facts]

def fn {F : FTy → Type} [FloatOps F] (main_arg0 : FVec F S8x4096x3 .f32) (main_arg1 : FVec F S8x4096x3 .f32) (main_arg2 : FVec F S8 .f32) : IVec S_ 1 :=
  let main_v0 : FVec F S8x4096x3 .f32 := Host.absf main_arg0
  let main_cst : FVec F S_ .f32 := constant S_ .f32 0x7F800000#32
  let main_v1 : FVec F S8x4096x3 .f32 := broadcastInDim S8x4096x3 ![] bcast_S_S8x4096x3 main_cst
  let main_v2 : IVec S8x4096x3 1 := cmpf .olt main_v0 main_v1
  let main_c : IVec S_ 1 := constantI S_ 1 1#1
  let main_v3 : IVec S_ 1 := (fun x v => Host.reduce IntOp.andi x v reducesTo_S8x4096x3_S_d0_1_2 h_S_) main_v2 main_c
  let main_v4 : FVec F S8x4096x3 .f32 := Host.absf main_arg1
  let main_cst_0 : FVec F S_ .f32 := constant S_ .f32 0x7F800000#32
  let main_v5 : FVec F S8x4096x3 .f32 := broadcastInDim S8x4096x3 ![] bcast_S_S8x4096x3 main_cst_0
  let main_v6 : IVec S8x4096x3 1 := cmpf .olt main_v4 main_v5
  let main_c_1 : IVec S_ 1 := constantI S_ 1 1#1
  let main_v7 : IVec S_ 1 := (fun x v => Host.reduce IntOp.andi x v reducesTo_S8x4096x3_S_d0_1_2 h_S_) main_v6 main_c_1
  let main_v8 : IVec S_ 1 := andi main_v3 main_v7
  let main_v9 : FVec F S8 .f32 := Host.absf main_arg2
  let main_cst_2 : FVec F S_ .f32 := constant S_ .f32 0x7F800000#32
  let main_v10 : FVec F S8 .f32 := broadcastInDim S8 ![] bcast_S_S8 main_cst_2
  let main_v11 : IVec S8 1 := cmpf .olt main_v9 main_v10
  let main_c_3 : IVec S_ 1 := constantI S_ 1 1#1
  let main_v12 : IVec S_ 1 := (fun x v => Host.reduce IntOp.andi x v reducesTo_S8_S_d0 h_S_) main_v11 main_c_3
  let main_v13 : IVec S_ 1 := andi main_v8 main_v12
  main_v13
-- ==== Kernel.lean ====
abbrev S8x4096x3 : Shape := ⟨3, ![8, 4096, 3]⟩
abbrev S8 : Shape := ⟨1, ![8]⟩
abbrev S8x3x4096 : Shape := ⟨3, ![8, 3, 4096]⟩
abbrev S8x4096x1 : Shape := ⟨3, ![8, 4096, 1]⟩
abbrev S8x1x4096 : Shape := ⟨3, ![8, 1, 4096]⟩
abbrev S1x1024x3 : Shape := ⟨3, ![1, 1024, 3]⟩
abbrev S1x3x4096 : Shape := ⟨3, ![1, 3, 4096]⟩
abbrev S1x1024x1 : Shape := ⟨3, ![1, 1024, 1]⟩
abbrev S1x1x4096 : Shape := ⟨3, ![1, 1, 4096]⟩
abbrev S1024x1 : Shape := ⟨2, ![1024, 1]⟩
abbrev S1024x3 : Shape := ⟨2, ![1024, 3]⟩
abbrev S1024 : Shape := ⟨1, ![1024]⟩
abbrev S1x4096 : Shape := ⟨2, ![1, 4096]⟩
abbrev S1x3x512 : Shape := ⟨3, ![1, 3, 512]⟩
abbrev S3x512 : Shape := ⟨2, ![3, 512]⟩
abbrev S1x512 : Shape := ⟨2, ![1, 512]⟩
abbrev S512 : Shape := ⟨1, ![512]⟩
abbrev S1024x512 : Shape := ⟨2, ![1024, 512]⟩
abbrev S1x1x512 : Shape := ⟨3, ![1, 1, 512]⟩
abbrev S8x4096 : Shape := ⟨2, ![8, 4096]⟩
abbrev S_ : Shape := ⟨0, ![]⟩

abbrev nBuf : Space → Nat
  | .hbm => 24
  | .vmem => 9
  | .smem => 0
  | _ => 0

abbrev bufTy : (tb : Table) → Fin (tcTables nBuf tb) → BufTy
  | .hbm, ⟨0, _⟩ => ⟨S8x4096x3, .f32⟩
  | .hbm, ⟨1, _⟩ => ⟨S8x4096x3, .f32⟩
  | .hbm, ⟨2, _⟩ => ⟨S8, .f32⟩
  | .hbm, ⟨3, _⟩ => ⟨S8x3x4096, .f32⟩
  | .hbm, ⟨4, _⟩ => ⟨S8x4096x1, .f32⟩
  | .hbm, ⟨5, _⟩ => ⟨S8x1x4096, .f32⟩
  | .hbm, ⟨6, _⟩ => ⟨S8x4096, .f32⟩
  | .hbm, ⟨7, _⟩ => ⟨S8x4096, .f32⟩
  | .hbm, ⟨8, _⟩ => ⟨S_, .f32⟩
  | .hbm, ⟨9, _⟩ => ⟨S8, .f32⟩
  | .hbm, ⟨10, _⟩ => ⟨S_, .f32⟩
  | .hbm, ⟨11, _⟩ => ⟨S8, .f32⟩
  | .hbm, ⟨12, _⟩ => ⟨S8, .f32⟩
  | .hbm, ⟨13, _⟩ => ⟨S_, .f32⟩
  | .hbm, ⟨14, _⟩ => ⟨S8, .f32⟩
  | .hbm, ⟨15, _⟩ => ⟨S_, .f32⟩
  | .hbm, ⟨16, _⟩ => ⟨S8, .f32⟩
  | .hbm, ⟨17, _⟩ => ⟨S8, .f32⟩
  | .hbm, ⟨18, _⟩ => ⟨S8, .f32⟩
  | .hbm, ⟨19, _⟩ => ⟨S8, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .local _ .vmem, ⟨0, _⟩ => ⟨S1x1024x3, .f32⟩
  | .local _ .vmem, ⟨1, _⟩ => ⟨S1x1024x3, .f32⟩
  | .local _ .vmem, ⟨2, _⟩ => ⟨S1x3x4096, .f32⟩
  | .local _ .vmem, ⟨3, _⟩ => ⟨S1x3x4096, .f32⟩
  | .local _ .vmem, ⟨4, _⟩ => ⟨S1x1024x1, .f32⟩
  | .local _ .vmem, ⟨5, _⟩ => ⟨S1x1024x1, .f32⟩
  | .local _ .vmem, ⟨6, _⟩ => ⟨S1x1x4096, .f32⟩
  | .local _ .vmem, ⟨7, _⟩ => ⟨S1x1x4096, .f32⟩
  | .local _ .vmem, ⟨8, _⟩ => ⟨S1024x1, .f32⟩
  | _, _ => ⟨S8x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 4], ![false, false]⟩

@[reducible] def k0_t1_loop : Scf.Loop 32 :=
  let c0_i32_6 : BitVec 32 := 0#32
  let c8_i32 : BitVec 32 := 8#32
  let v15 : BitVec 32 := Scalar.addi c0_i32_6 c8_i32
  let c1_i32 : BitVec 32 := 1#32
  ⟨c0_i32_6, v15, c1_i32⟩
def k0_mult1 (k0_t1 : Fin k0_t1_loop.trips) : BitVec 32 :=
  let c0_i32_6 : BitVec 32 := 0#32
  let c1_i32 : BitVec 32 := 1#32
  let arg7 : BitVec 32 := Scf.iv c0_i32_6 c1_i32 k0_t1
  let c512_i32 : BitVec 32 := 512#32
  let v20 : BitVec 32 := Scalar.muli arg7 c512_i32
  v20
def k0_off1 (k0_t1 : Fin k0_t1_loop.trips) : Fin 3 → Nat :=
  let c0_13 : Index := 0#32
  let c0_14 : Index := 0#32
  let c0_i32_6 : BitVec 32 := 0#32
  let c1_i32 : BitVec 32 := 1#32
  let arg7 : BitVec 32 := Scf.iv c0_i32_6 c1_i32 k0_t1
  let c512_i32 : BitVec 32 := 512#32
  let v20 : BitVec 32 := Scalar.muli arg7 c512_i32
  let v21 : BitVec 32 := v20
  let v22 : Index := Scalar.indexCast v21
  ![0, 0, v22.toNat]
def k0_off2 (k0_t1 : Fin k0_t1_loop.trips) : Fin 3 → Nat :=
  let c0_26 : Index := 0#32
  let c0_27 : Index := 0#32
  let c0_i32_6 : BitVec 32 := 0#32
  let c1_i32 : BitVec 32 := 1#32
  let arg7 : BitVec 32 := Scf.iv c0_i32_6 c1_i32 k0_t1
  let c512_i32 : BitVec 32 := 512#32
  let v20 : BitVec 32 := Scalar.muli arg7 c512_i32
  let v21 : BitVec 32 := v20
  let v63 : Index := Scalar.indexCast v21
  ![0, 0, v63.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  transposes_S8x4096x3_S8x3x4096_0_2_1 : S8x4096x3.Transposes [0, 2, 1] S8x3x4096
  inb_S1x1024x3_S1x1024x3_0_0_0 : ∀ a, (![0, 0, 0] : Fin 3 → Nat) a + S1x1024x3.size a ≤ S1x1024x3.size a
  h_S1x1024x3 : 0 < S1x1024x3.numel
  shapeCasts_S1x1024x3_S1024x3 : S1x1024x3.ShapeCasts S1024x3
  slices_S1024x3_o0_0_S1024x1 : S1024x3.Slices ![0, 0] S1024x1
  slices_S1024x3_o0_1_S1024x1 : S1024x3.Slices ![0, 1] S1024x1
  slices_S1024x3_o0_2_S1024x1 : S1024x3.Slices ![0, 2] S1024x1
  reduces_S1024x3_S1024 : S1024x3.Reduces [1] S1024
  shapeCasts_S1024_S1024x1 : S1024.ShapeCasts S1024x1
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x1x4096_S1x1x4096_0_0_0 : ∀ a, (![0, 0, 0] : Fin 3 → Nat) a + S1x1x4096.size a ≤ S1x1x4096.size a
  h_S1x1x4096 : 0 < S1x1x4096.numel
  shapeCasts_S1x1x4096_S1x4096 : S1x1x4096.ShapeCasts S1x4096
  shapeCasts_S1x4096_S1x1x4096 : S1x4096.ShapeCasts S1x1x4096
  h_S1x3x512 : 0 < S1x3x512.numel
  shapeCasts_S1x3x512_S3x512 : S1x3x512.ShapeCasts S3x512
  slices_S3x512_o0_0_S1x512 : S3x512.Slices ![0, 0] S1x512
  slices_S3x512_o1_0_S1x512 : S3x512.Slices ![1, 0] S1x512
  slices_S3x512_o2_0_S1x512 : S3x512.Slices ![2, 0] S1x512
  reduces_S3x512_S512 : S3x512.Reduces [0] S512
  shapeCasts_S512_S1x512 : S512.ShapeCasts S1x512
  broadcasts_S1024x1_S1024x512 : S1024x1.Broadcasts S1024x512
  broadcasts_S1x512_S1024x512 : S1x512.Broadcasts S1024x512
  reduces_S1024x512_S1024 : S1024x512.Reduces [1] S1024
  reduces_S1024x512_S512 : S1024x512.Reduces [0] S512
  h_S1x1x512 : 0 < S1x1x512.numel
  shapeCasts_S1x1x512_S1x512 : S1x1x512.ShapeCasts S1x512
  shapeCasts_S1x512_S1x1x512 : S1x512.ShapeCasts S1x1x512
  inb_S1x1024x1_S1x1024x1_0_0_0 : ∀ a, (![0, 0, 0] : Fin 3 → Nat) a + S1x1024x1.size a ≤ S1x1024x1.size a
  h_S1x1024x1 : 0 < S1x1024x1.numel
  shapeCasts_S1x1024x1_S1024x1 : S1x1024x1.ShapeCasts S1024x1
  shapeCasts_S1024x1_S1x1024x1 : S1024x1.ShapeCasts S1x1024x1
  shapeCasts_S8x4096x1_S8x4096 : S8x4096x1.ShapeCasts S8x4096
  shapeCasts_S8x1x4096_S8x4096 : S8x1x4096.ShapeCasts S8x4096
  reducesTo_S8x4096_S8_d1 : S8x4096.ReducesTo [1] S8
  h_S_ : 0 < S_.numel
  bcast_S_S8 : S_.BroadcastsInDim S8 (![] : Fin 0 → Fin S8.rank)
  reducesTo_S8_S_d0 : S8.ReducesTo [0] S_
  hrank0 : 0 < grid0.rank
  k0_t1_ok : k0_t1_loop.OK
  k0_mult1_dvd : ∀ k0_t1 : Fin k0_t1_loop.trips, 512 ∣ (k0_mult1 k0_t1).toNat
  k0_off1_inb : ∀ k0_t1 : Fin k0_t1_loop.trips, ∀ a, (k0_off1 k0_t1) a + S1x3x512.size a ≤ S1x3x4096.size a
  k0_off2_inb : ∀ k0_t1 : Fin k0_t1_loop.trips, ∀ a, (k0_off2 k0_t1) a + S1x1x512.size a ≤ S1x1x4096.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x3.size a ≤ S8x4096x3.size a
  hwx0_0 : ∀ i : grid0.Coords, EltTy.bits .f32 = 32 ∨ (Rect.block (s := S8x4096x3) S1x1024x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x3x4096.size a ≤ S8x3x4096.size a
  hwx0_1 : ∀ i : grid0.Coords, EltTy.bits .f32 = 32 ∨ (Rect.block (s := S8x3x4096) S1x3x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x1.size a ≤ S8x4096x1.size a
  hwx0_2 : ∀ i : grid0.Coords, EltTy.bits .f32 = 32 ∨ (Rect.block (s := S8x4096x1) S1x1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x4096.size a ≤ S8x1x4096.size a
  hwx0_3 : ∀ i : grid0.Coords, EltTy.bits .f32 = 32 ∨ (Rect.block (s := S8x1x4096) S1x1x4096.size (cc0_transform_3 i) (hinb0_3 i)).WholeWords (EltTy.packing .f32)

variable [Facts₀]

abbrev win0_0 : Pipeline.Window sig grid0 :=
  Pipeline.Window.ofSpec (Memref.whole main_arg0) S1x1024x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x3x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S1x1024x1.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S1x1x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x4096x3 : Shape := ⟨3, ![8, 4096, 3]⟩
abbrev S8 : Shape := ⟨1, ![8]⟩
abbrev S_ : Shape := ⟨0, ![]⟩
abbrev S8x4096 : Shape := ⟨2, ![8, 4096]⟩
abbrev S8x4096x4096 : Shape := ⟨3, ![8, 4096, 4096]⟩
abbrev S8x4096x1 : Shape := ⟨3, ![8, 4096, 1]⟩
abbrev S8x1x4096 : Shape := ⟨3, ![8, 1, 4096]⟩

abbrev nBuf : Space → Nat
  | .hbm => 42
  | .vmem => 0
  | .smem => 0
  | _ => 0

abbrev bufTy : (tb : Table) → Fin (tcTables nBuf tb) → BufTy
  | .hbm, ⟨0, _⟩ => ⟨S8x4096x3, .f32⟩
  | .hbm, ⟨1, _⟩ => ⟨S8x4096x3, .f32⟩
  | .hbm, ⟨2, _⟩ => ⟨S8, .f32⟩
  | .hbm, ⟨3, _⟩ => ⟨S8x4096x3, .f32⟩
  | .hbm, ⟨4, _⟩ => ⟨S_, .f32⟩
  | .hbm, ⟨5, _⟩ => ⟨S8x4096, .f32⟩
  | .hbm, ⟨6, _⟩ => ⟨S8x4096x3, .f32⟩
  | .hbm, ⟨7, _⟩ => ⟨S_, .f32⟩
  | .hbm, ⟨8, _⟩ => ⟨S8x4096, .f32⟩
  | .hbm, ⟨9, _⟩ => ⟨S8x4096x4096, .f32⟩
  | .hbm, ⟨10, _⟩ => ⟨S8x4096x1, .f32⟩
  | .hbm, ⟨11, _⟩ => ⟨S8x1x4096, .f32⟩
  | .hbm, ⟨12, _⟩ => ⟨S8x4096x4096, .f32⟩
  | .hbm, ⟨13, _⟩ => ⟨S8x4096x4096, .f32⟩
  | .hbm, ⟨14, _⟩ => ⟨S8x4096x4096, .f32⟩
  | .hbm, ⟨15, _⟩ => ⟨S_, .f32⟩
  | .hbm, ⟨16, _⟩ => ⟨S8x4096x4096, .f32⟩
  | .hbm, ⟨17, _⟩ => ⟨S8x4096x4096, .f32⟩
  | .hbm, ⟨18, _⟩ => ⟨S8x4096x4096, .f32⟩
  | .hbm, ⟨19, _⟩ => ⟨S_, .f32⟩
  | .hbm, ⟨20, _⟩ => ⟨S8x4096x4096, .f32⟩
  | .hbm, ⟨21, _⟩ => ⟨S8x4096x4096, .f32⟩
  | .hbm, ⟨22, _⟩ => ⟨S_, .f32⟩
  | .hbm, ⟨23, _⟩ => ⟨S8x4096, .f32⟩
  | .hbm, ⟨24, _⟩ => ⟨S_, .f32⟩
  | .hbm, ⟨25, _⟩ => ⟨S8x4096, .f32⟩
  | .hbm, ⟨26, _⟩ => ⟨S_, .f32⟩
  | .hbm, ⟨27, _⟩ => ⟨S8, .f32⟩
  | .hbm, ⟨28, _⟩ => ⟨S_, .f32⟩
  | .hbm, ⟨29, _⟩ => ⟨S8, .f32⟩
  | .hbm, ⟨30, _⟩ => ⟨S8, .f32⟩
  | .hbm, ⟨31, _⟩ => ⟨S_, .f32⟩
  | .hbm, ⟨32, _⟩ => ⟨S8, .f32⟩
  | .hbm, ⟨33, _⟩ => ⟨S_, .f32⟩
  | .hbm, ⟨34, _⟩ => ⟨S8, .f32⟩
  | .hbm, ⟨35, _⟩ => ⟨S8, .f32⟩
  | .hbm, ⟨36, _⟩ => ⟨S8, .f32⟩
  | .hbm, ⟨37, _⟩ => ⟨S8, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | _, _ => ⟨S8x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_cst_3 : Ref sig .tc := ⟨.hbm, 22, rfl⟩
abbrev main_v15 : Ref sig .tc := ⟨.hbm, 23, rfl⟩
abbrev main_cst_4 : Ref sig .tc := ⟨.hbm, 24, rfl⟩
abbrev main_v16 : Ref sig .tc := ⟨.hbm, 25, rfl⟩
abbrev main_cst_5 : Ref sig .tc := ⟨.hbm, 26, rfl⟩
abbrev main_v17 : Ref sig .tc := ⟨.hbm, 27, rfl⟩
abbrev main_cst_6 : Ref sig .tc := ⟨.hbm, 28, rfl⟩
abbrev main_v18 : Ref sig .tc := ⟨.hbm, 29, rfl⟩
abbrev main_v19 : Ref sig .tc := ⟨.hbm, 30, rfl⟩
abbrev main_cst_7 : Ref sig .tc := ⟨.hbm, 31, rfl⟩
abbrev main_v20 : Ref sig .tc := ⟨.hbm, 32, rfl⟩
abbrev main_cst_8 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_9 : Ref sig .tc := ⟨.hbm, 38, rfl⟩
abbrev main_v25 : Ref sig .tc := ⟨.hbm, 39, rfl⟩
abbrev main_cst_10 : Ref sig .tc := ⟨.hbm, 40, rfl⟩
abbrev main_v26 : Ref sig .tc := ⟨.hbm, 41, rfl⟩

abbrev nD : Nat := 1
abbrev τ : Topo := Topo.v7x

variable {F : FTy → Type} [FloatOps F]

class Facts₀ : Prop where
  reducesTo_S8x4096x3_S8x4096_d2 : S8x4096x3.ReducesTo [2] S8x4096
  h_S_ : 0 < S_.numel
  bcast_S8x4096_S8x4096x1_0_1 : S8x4096.BroadcastsInDim S8x4096x1 (![0, 1] : Fin 2 → Fin S8x4096x1.rank)
  bcast_S8x4096_S8x1x4096_0_2 : S8x4096.BroadcastsInDim S8x1x4096 (![0, 2] : Fin 2 → Fin S8x1x4096.rank)
  bcast_S8x4096x1_S8x4096x4096_0_1_2 : S8x4096x1.BroadcastsInDim S8x4096x4096 (![0, 1, 2] : Fin 3 → Fin S8x4096x4096.rank)
  bcast_S8x1x4096_S8x4096x4096_0_1_2 : S8x1x4096.BroadcastsInDim S8x4096x4096 (![0, 1, 2] : Fin 3 → Fin S8x4096x4096.rank)
  bcast_S_S8x4096x4096 : S_.BroadcastsInDim S8x4096x4096 (![] : Fin 0 → Fin S8x4096x4096.rank)
  reducesTo_S8x4096x4096_S8x4096_d2 : S8x4096x4096.ReducesTo [2] S8x4096
  reducesTo_S8x4096x4096_S8x4096_d1 : S8x4096x4096.ReducesTo [1] S8x4096
  reducesTo_S8x4096_S8_d1 : S8x4096.ReducesTo [1] S8
  bcast_S_S8 : S_.BroadcastsInDim S8 (![] : Fin 0 → Fin S8.rank)
  reducesTo_S8_S_d0 : S8.ReducesTo [0] S_
  dot_S8x4096x3_S8x4096x3_S8x4096x4096_2_2_1_1_0_0_wf : DotDims.WF S8x4096x3 S8x4096x3 S8x4096x4096 [2] [2] [1] [1] [0] [0]

variable [Facts₀]

def dot_S8x4096x3_S8x4096x3_S8x4096x4096_2_2_1_1_0_0 : DotDims S8x4096x3 S8x4096x3 S8x4096x4096 where
  lhsContracting := [2]
  rhsContracting := [2]
  lhsNonContracting := [1]
  rhsNonContracting := [1]
  lhsBatch := [0]
  rhsBatch := [0]
  wf := dot_S8x4096x3_S8x4096x3_S8x4096x4096_2_2_1_1_0_0_wf

class Facts : Prop extends Facts₀ where

variable [Facts]
-- ==== Proof.Dist.lean ====
/-
  Squared distances between points of ℝ³ over the extended reals, in the two arrangements the two programs use,
  the law that joins them on real coordinates, and nearest-neighbour minima: a minimum over a range is the
  greatest lower bound of its entries, so a minimum taken chunk by chunk, or tile by tile with a running value,
  is the minimum over the whole range.
-/
import Idealize.ShloMosaic.PureOps.Ideal
import Idealize.ShloMosaic.Lib.ValueIdx

noncomputable section

open scoped BigOperators

namespace Chamfer

open Idealize.ShloMosaic

/-! ## The constants the programs spell -/

/-- The pattern of `+∞` denotes the top of the extended reals. -/
theorem ofBits_inf : Ideal.ofBits .f32 0x7F800000#32 = (⊤ : EReal) := by
  simp [Ideal.ofBits, Ideal.ieee]

/-- `2.0` denotes the real `2`. -/
theorem ofBits_two : Ideal.ofBits .f32 0x40000000#32 = ((2 : ℝ) : EReal) := by
  simp [Ideal.ofBits, Ideal.ieee, -EReal.coe_mul]; norm_num

/-- `-2.0` denotes the real `-2`. -/
theorem ofBits_neg_two : Ideal.ofBits .f32 0xC0000000#32 = ((-2 : ℝ) : EReal) := by
  simp [Ideal.ofBits, Ideal.ieee, -EReal.coe_mul]; norm_num

/-! ## The squared distance, two ways -/

/-- `max (|p|² + |q|² − 2·(p·q)) 0`: the squares' sums first, then twice the inner product subtracted. -/
def dRef (p q : Fin 3 → EReal) : EReal :=
  max (((∑ d, p d * p d) + (∑ d, q d * q d)) - ((2 : ℝ) : EReal) * ∑ d, p d * q d) 0

/-- `max (|p|² + |q|² + (p₀·(−2q₀) + p₁·(−2q₁) + p₂·(−2q₂))) 0`: the factor `−2` folded into `q`'s coordinates,
    the three products added one after the other. -/
def dKer (p q : Fin 3 → EReal) : EReal :=
  max (((∑ d, p d * p d) + (∑ d, q d * q d))
    + ((p 0 * (((-2 : ℝ) : EReal) * q 0) + p 1 * (((-2 : ℝ) : EReal) * q 1)) + p 2 * (((-2 : ℝ) : EReal) * q 2))) 0

/-- On real coordinates the two arrangements agree: `−2` distributes over the inner product's three terms. (At an
    infinite coordinate the two sums may differ, so the coordinates' finiteness is used.) -/
theorem dKer_eq_dRef (p q : Fin 3 → EReal) (hp : ∀ d, ∃ r : ℝ, p d = (r : EReal)) (hq : ∀ d, ∃ r : ℝ, q d = (r : EReal)) :
    dKer p q = dRef p q := by
  choose a ha using hp
  choose b hb using hq
  unfold dKer dRef
  simp only [Fin.sum_univ_three, ha, hb, ← EReal.coe_mul, ← EReal.coe_add, ← EReal.coe_sub]
  exact congrArg (fun r : ℝ => max (r : EReal) 0) (by ring)

/-! ## Minima -/

/-- A fold of `min` from `+∞` is the greatest lower bound. -/
theorem fold_min_top {ι : Type*} (s : Finset ι) (f : ι → EReal) : s.fold min ⊤ f = s.inf f := by
  classical
  induction s using Finset.induction_on with
  | empty => rfl
  | insert a s ha ih => rw [Finset.fold_insert ha, Finset.inf_insert, ih]

/-- A fold of `min` from any start is the start against the greatest lower bound. -/
theorem fold_min {ι : Type*} (s : Finset ι) (f : ι → EReal) (c : EReal) : s.fold min c f = min c (s.inf f) := by
  classical
  induction s using Finset.induction_on with
  | empty => simp
  | insert a s ha ih =>
    rw [Finset.fold_insert ha, Finset.inf_insert, ih]
    exact min_left_comm _ _ _

/-- The running minimum over the first `k` chunks of `w` entries, joined with chunk `k`'s minimum, is the running
    minimum over the first `k + 1` chunks. -/
theorem inf_chunk_succ {N w : ℕ} (f : Fin N → EReal) (k : ℕ) (hk : w * (k + 1) ≤ N) :
    min ((Finset.univ.filter fun j : Fin N => j.val < w * k).inf f)
        ((Finset.univ : Finset (Fin w)).inf fun l => f ⟨w * k + l.val, by have := l.isLt; nlinarith⟩)
      = (Finset.univ.filter fun j : Fin N => j.val < w * (k + 1)).inf f := by
  have hw : w * (k + 1) = w * k + w := by ring
  refine eq_of_forall_le_iff fun c => ?_
  simp only [le_min_iff, Finset.le_inf_iff, Finset.mem_filter, Finset.mem_univ, true_and, forall_true_left]
  constructor
  · rintro ⟨h1, h2⟩ j hj
    by_cases hlt : j.val < w * k
    · exact h1 j hlt
    · have hl : j.val - w * k < w := by omega
      have h3 := h2 ⟨j.val - w * k, hl⟩
      have e : (⟨w * k + (j.val - w * k), by omega⟩ : Fin N) = j := Fin.ext (by simp only; omega)
      rw [e] at h3
      exact h3
  · intro h
    refine ⟨fun j hj => h j (by omega), fun l => h _ ?_⟩
    have hl := l.isLt
    simp only
    omega

/-- Nothing lies below the first chunk: the running minimum starts at `+∞`. -/
theorem inf_chunk_zero {N w : ℕ} (f : Fin N → EReal) :
    (Finset.univ.filter fun j : Fin N => j.val < w * 0).inf f = ⊤ := by
  rw [Finset.filter_false_of_mem (fun j _ => by simp), Finset.inf_empty]

/-- Once the chunks exhaust the range the running minimum is the minimum. -/
theorem inf_chunk_all {N w K : ℕ} (f : Fin N → EReal) (h : N ≤ w * K) :
    (Finset.univ.filter fun j : Fin N => j.val < w * K).inf f = Finset.univ.inf f := by
  rw [Finset.filter_true_of_mem (fun j _ => lt_of_lt_of_le j.isLt h)]

end Chamfer

end
-- ==== Proof.LibLayout.lean ====
/-
  Layout operations read at an index written by its coordinates, for the shapes a "keepdims" reduction kernel meets:
  a unit axis inserted in the middle or at the end of a shape by a shape cast, a broadcast along such a unit axis,
  the two composed, and a sum over one axis read as a `Fin`-indexed sum at coordinates.  All statements are over
  generic extents; the indices are the library's `ixN` constructors.
-/
import Idealize.ShloMosaic.Lib.Pipeline.Value
import Idealize.ShloMosaic.Lib.ValueIdx
import Idealize.ShloMosaic.Lib.ValueLayout
import Idealize.ShloMosaic.PureOps.Ideal.Laws

namespace PushPull.Layout

open Idealize.ShloMosaic Idealize.ShloMosaic.ValueIdx

variable {α : Type}

/-! ## A unit axis inserted by a shape cast -/

/-- `[a, b] → [a, b, 1]`: the entry `(i, j, 0)` is the entry `(i, j)`. -/
theorem cast_ab_ab1 {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_two, Shape.rowMajor_val_three]
    show i.val * b + j.val = (i.val * b + j.val) * 1 + u.val
    rw [hu, Nat.mul_one, Nat.add_zero])

/-- `[a, b] → [a, 1, b]`. -/
theorem cast_ab_a1b {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_two, Shape.rowMajor_val_three]
    show i.val * b + j.val = (i.val * 1 + u.val) * b + j.val
    rw [hu, Nat.mul_one, Nat.add_zero])

/-- `[a, b, c] → [a, b, 1, c]`. -/
theorem cast_abc_ab1c {a b c : ℕ} (x : (⟨3, ![a, b, c]⟩ : Shape).Idx → α)
    (h : (⟨3, ![a, b, c]⟩ : Shape).ShapeCasts ⟨4, ![a, b, 1, c]⟩) (i : Fin a) (j : Fin b) (u : Fin 1) (k : Fin c) :
    shapeCast ⟨4, ![a, b, 1, c]⟩ x h (ix4 i j u k) = x (ix3 i j k) :=
  shapeCast_apply x h _ _ (by
    have hu : u.val = 0 := by omega
    rw [Shape.rowMajor_val_three, Shape.rowMajor_val_four]
    show (i.val * b + j.val) * c + k.val = ((i.val * b + j.val) * 1 + u.val) * c + k.val
    rw [hu, Nat.mul_one, Nat.add_zero])

/-- `[a, b, c] → [a, 1, b, c]`. -/
theorem cast_abc_a1bc {a b c : ℕ} (x : (⟨3, ![a, b, c]⟩ : Shape).Idx → α)
    (h : (⟨3, ![a, b, c]⟩ : Shape).ShapeCasts ⟨4, ![a, 1, b, c]⟩) (i : Fin a) (u : Fin 1) (j : Fin b) (k : Fin c) :
    shapeCast ⟨4, ![a, 1, b, c]⟩ x h (ix4 i u j k) = x (ix3 i j k) :=
  shapeCast_apply x h _ _ (by
    have hu : u.val = 0 := by omega
    rw [Shape.rowMajor_val_three, Shape.rowMajor_val_four]
    show (i.val * b + j.val) * c + k.val = ((i.val * 1 + u.val) * b + j.val) * c + k.val
    rw [hu, Nat.mul_one, Nat.add_zero])

/-- `[a, b, c] → [a, b, c, 1]`. -/
theorem cast_abc_abc1 {a b c : ℕ} (x : (⟨3, ![a, b, c]⟩ : Shape).Idx → α)
    (h : (⟨3, ![a, b, c]⟩ : Shape).ShapeCasts ⟨4, ![a, b, c, 1]⟩) (i : Fin a) (j : Fin b) (k : Fin c) (u : Fin 1) :
    shapeCast ⟨4, ![a, b, c, 1]⟩ x h (ix4 i j k u) = x (ix3 i j k) :=
  shapeCast_apply x h _ _ (by
    have hu : u.val = 0 := by omega
    rw [Shape.rowMajor_val_three, Shape.rowMajor_val_four]
    show (i.val * b + j.val) * c + k.val = ((i.val * b + j.val) * c + k.val) * 1 + u.val
    rw [hu, Nat.mul_one, Nat.add_zero])

/-- `[a] → [a, 1]`. -/
theorem cast_a_a1 {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-! ## A broadcast along a unit axis -/

/-- `[a, b, 1, c] → [a, b, k, c]`. -/
theorem bcast_ab1c {a b c k : ℕ} (x : (⟨4, ![a, b, 1, c]⟩ : Shape).Idx → α)
    (h : (⟨4, ![a, b, 1, c]⟩ : Shape).Broadcasts ⟨4, ![a, b, k, c]⟩) (i : Fin a) (j : Fin b) (q : Fin k) (l : Fin c) :
    broadcastTo ⟨4, ![a, b, k, c]⟩ x h (ix4 i j q l) = x (ix4 i j (0 : Fin 1) l) :=
  broadcastTo_apply x h _ _ (fun ax => by
    have hi := i.isLt; have hj := j.isLt; have hl := l.isLt
    match ax with
    | ⟨0, _⟩ => show i.val = if a = 1 then 0 else i.val; split <;> omega
    | ⟨1, _⟩ => show j.val = if b = 1 then 0 else j.val; split <;> omega
    | ⟨2, _⟩ => show (0 : ℕ) = if 1 = 1 then 0 else q.val; exact (if_pos rfl).symm
    | ⟨3, _⟩ => show l.val = if c = 1 then 0 else l.val; split <;> omega)

/-- `[a, 1, b, c] → [a, k, b, c]`. -/
theorem bcast_a1bc {a b c k : ℕ} (x : (⟨4, ![a, 1, b, c]⟩ : Shape).Idx → α)
    (h : (⟨4, ![a, 1, b, c]⟩ : Shape).Broadcasts ⟨4, ![a, k, b, c]⟩) (i : Fin a) (q : Fin k) (j : Fin b) (l : Fin c) :
    broadcastTo ⟨4, ![a, k, b, c]⟩ x h (ix4 i q j l) = x (ix4 i (0 : Fin 1) j l) :=
  broadcastTo_apply x h _ _ (fun ax => by
    have hi := i.isLt; have hj := j.isLt; have hl := l.isLt
    match ax with
    | ⟨0, _⟩ => show i.val = if a = 1 then 0 else i.val; split <;> omega
    | ⟨1, _⟩ => show (0 : ℕ) = if 1 = 1 then 0 else q.val; exact (if_pos rfl).symm
    | ⟨2, _⟩ => show j.val = if b = 1 then 0 else j.val; split <;> omega
    | ⟨3, _⟩ => show l.val = if c = 1 then 0 else l.val; split <;> omega)

/-- `[a, b, 1] → [a, b, k]`. -/
theorem bcast_ab1 {a b k : ℕ} (x : (⟨3, ![a, b, 1]⟩ : Shape).Idx → α)
    (h : (⟨3, ![a, b, 1]⟩ : Shape).Broadcasts ⟨3, ![a, b, k]⟩) (i : Fin a) (j : Fin b) (q : Fin k) :
    broadcastTo ⟨3, ![a, b, k]⟩ x h (ix3 i j q) = x (ix3 i j (0 : Fin 1)) :=
  broadcastTo_apply x h _ _ (fun ax => by
    have hi := i.isLt; have hj := j.isLt
    match ax with
    | ⟨0, _⟩ => show i.val = if a = 1 then 0 else i.val; split <;> omega
    | ⟨1, _⟩ => show j.val = if b = 1 then 0 else j.val; split <;> omega
    | ⟨2, _⟩ => show (0 : ℕ) = if 1 = 1 then 0 else q.val; exact (if_pos rfl).symm)

/-- `[a, 1, b] → [a, k, b]`. -/
theorem bcast_a1b {a b k : ℕ} (x : (⟨3, ![a, 1, b]⟩ : Shape).Idx → α)
    (h : (⟨3, ![a, 1, b]⟩ : Shape).Broadcasts ⟨3, ![a, k, b]⟩) (i : Fin a) (q : Fin k) (j : Fin b) :
    broadcastTo ⟨3, ![a, k, b]⟩ x h (ix3 i q j) = x (ix3 i (0 : Fin 1) j) :=
  broadcastTo_apply x h _ _ (fun ax => by
    have hi := i.isLt; have hj := j.isLt
    match ax with
    | ⟨0, _⟩ => show i.val = if a = 1 then 0 else i.val; split <;> omega
    | ⟨1, _⟩ => show (0 : ℕ) = if 1 = 1 then 0 else q.val; exact (if_pos rfl).symm
    | ⟨2, _⟩ => show j.val = if b = 1 then 0 else j.val; split <;> omega)

/-- `[a, b, c, 1] → [a, b, c, k]`. -/
theorem bcast_abc1 {a b c k : ℕ} (x : (⟨4, ![a, b, c, 1]⟩ : Shape).Idx → α)
    (h : (⟨4, ![a, b, c, 1]⟩ : Shape).Broadcasts ⟨4, ![a, b, c, k]⟩) (i : Fin a) (j : Fin b) (l : Fin c) (q : Fin k) :
    broadcastTo ⟨4, ![a, b, c, k]⟩ x h (ix4 i j l q) = x (ix4 i j l (0 : Fin 1)) :=
  broadcastTo_apply x h _ _ (fun ax => by
    have hi := i.isLt; have hj := j.isLt; have hl := l.isLt
    match ax with
    | ⟨0, _⟩ => show i.val = if a = 1 then 0 else i.val; split <;> omega
    | ⟨1, _⟩ => show j.val = if b = 1 then 0 else j.val; split <;> omega
    | ⟨2, _⟩ => show l.val = if c = 1 then 0 else l.val; split <;> omega
    | ⟨3, _⟩ => show (0 : ℕ) = if 1 = 1 then 0 else q.val; exact (if_pos rfl).symm)

/-- `[1, 1] → [1, k]`. -/
theorem bcast_11 {k : ℕ} (x : (⟨2, ![1, 1]⟩ : Shape).Idx → α)
    (h : (⟨2, ![1, 1]⟩ : Shape).Broadcasts ⟨2, ![1, k]⟩) (u : Fin 1) (q : Fin k) :
    broadcastTo ⟨2, ![1, k]⟩ x h (ix2 u q) = x (ix2 (0 : Fin 1) (0 : Fin 1)) :=
  broadcastTo_apply x h _ _ (fun ax => by
    match ax with
    | ⟨0, _⟩ => show (0 : ℕ) = if 1 = 1 then 0 else u.val; exact (if_pos rfl).symm
    | ⟨1, _⟩ => show (0 : ℕ) = if 1 = 1 then 0 else q.val; exact (if_pos rfl).symm)

/-! ## A sum over one axis, at coordinates -/

section Sums
variable {φ : FTy}

/-- The last axis of three. -/
theorem sum_abc_2 {a b c : ℕ} (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (i : Fin a) (j : Fin b) :
    multiReduction .add [2] ⟨2, ![a, b]⟩ src acc h hφ hacc (ix2 i j) = ∑ k : Fin c, src (ix3 i j k) :=
  (Ideal.multiReduction_add_single src acc h hφ hacc (ix2 i j)).trans
    (Finset.sum_congr rfl fun k _ => congrArg src (funext fun ax => Fin.ext (by
      match ax with | ⟨0, _⟩ => rfl | ⟨1, _⟩ => rfl | ⟨2, _⟩ => rfl)))

/-- The last axis of four. -/
theorem sum_abcd_3 {a b c d : ℕ} (src : FVec Ideal ⟨4, ![a, b, c, d]⟩ φ) (acc : BitVec φ.bits)
    (h : (⟨4, ![a, b, c, d]⟩ : Shape).Reduces [3] ⟨3, ![a, b, c]⟩) (hφ : FKind.Formats φ) (hacc : acc = FKind.add.neutral φ hφ)
    (i : Fin a) (j : Fin b) (l : Fin c) :
    multiReduction .add [3] ⟨3, ![a, b, c]⟩ src acc h hφ hacc (ix3 i j l) = ∑ k : Fin d, src (ix4 i j l k) :=
  (Ideal.multiReduction_add_single src acc h hφ hacc (ix3 i j l)).trans
    (Finset.sum_congr rfl fun k _ => congrArg src (funext fun ax => Fin.ext (by
      match ax with | ⟨0, _⟩ => rfl | ⟨1, _⟩ => rfl | ⟨2, _⟩ => rfl | ⟨3, _⟩ => rfl)))

/-- The third axis of four. -/
theorem sum_abcd_2 {a b c d : ℕ} (src : FVec Ideal ⟨4, ![a, b, c, d]⟩ φ) (acc : BitVec φ.bits)
    (h : (⟨4, ![a, b, c, d]⟩ : Shape).Reduces [2] ⟨3, ![a, b, d]⟩) (hφ : FKind.Formats φ) (hacc : acc = FKind.add.neutral φ hφ)
    (i : Fin a) (j : Fin b) (l : Fin d) :
    multiReduction .add [2] ⟨3, ![a, b, d]⟩ src acc h hφ hacc (ix3 i j l) = ∑ k : Fin c, src (ix4 i j k l) :=
  (Ideal.multiReduction_add_single src acc h hφ hacc (ix3 i j l)).trans
    (Finset.sum_congr rfl fun k _ => congrArg src (funext fun ax => Fin.ext (by
      match ax with | ⟨0, _⟩ => rfl | ⟨1, _⟩ => rfl | ⟨2, _⟩ => rfl | ⟨3, _⟩ => rfl)))

/-- The last axis of two. -/
theorem sum_ab_1 {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (i : Fin a) :
    multiReduction .add [1] ⟨1, ![a]⟩ src acc h hφ hacc (ix1 i) = ∑ k : Fin b, src (ix2 i k) :=
  (Ideal.multiReduction_add_single src acc h hφ hacc (ix1 i)).trans
    (Finset.sum_congr rfl fun k _ => congrArg src (funext fun ax => Fin.ext (by
      match ax with | ⟨0, _⟩ => rfl | ⟨1, _⟩ => rfl)))

/-- The first axis of two. -/
theorem sum_ab_0 {a b : ℕ} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ)
    (j : Fin b) :
    multiReduction .add [0] ⟨1, ![b]⟩ src acc h hφ hacc (ix1 j) = ∑ k : Fin a, src (ix2 k j) :=
  (Ideal.multiReduction_add_single src acc h hφ hacc (ix1 j)).trans
    (Finset.sum_congr rfl fun k _ => congrArg src (funext fun ax => Fin.ext (by
      match ax with | ⟨0, _⟩ => rfl | ⟨1, _⟩ => rfl)))

end Sums

end PushPull.Layout
-- ==== Proof.LibRowCol.lean ====
/-
  A vector seen as a one-column or a one-row array, and the layout operations that compute those views.

  `colOf y` is the `[n, 1]` array whose entry `(p, 0)` is `y p`; `rowOf b` the `[1, k]` array whose entry `(0, q)` is
  `b q`.  A reshape of `[n]` to `[n, 1]` is the column view and a reshape of `[k]` to `[1, k]` the row view
  (`shapeCast_col`, `shapeCast_row`); a view read at an index is the vector at ANY index with the same coordinate
  (`colOf_eq`, `rowOf_eq`), which is how a chain of broadcasts that ends in the vector is matched with the view.
  An `[a, 1]` array broadcast to `[a, b]` reads its one column in the row (`broadcastTo_a1_ab_apply`), and an `[a]`
  array cast to `[a, 1]` reads the vector in the row (`shapeCast_a_a1_apply`).  Over generic extents; indices are built
  from coordinates.
-/
import Idealize.ShloMosaic.Lib.Pipeline.Value
import Idealize.ShloMosaic.Lib.ValueIdx
import Idealize.ShloMosaic.Lib.ValueLayout

noncomputable section

namespace RowCol

open Idealize.ShloMosaic Idealize.ShloMosaic.ValueIdx

/-! ## Layout operations at coordinates -/

section Layout
variable {α : Type}

/-- An `[a, 1]` array broadcast to `[a, b]` reads, at `(p, c)`, the operand's one column at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if 1 = 1 then 0 else c.val
    exact (if_pos rfl).symm

/-- An `[a]` array cast to `[a, 1]` reads, at `(i, u)`, the operand at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

end Layout

/-! ## Column and row views of a vector of extended reals -/

/-- A vector as a one-column array. -/
def colOf {n : ℕ} (y : (⟨1, ![n]⟩ : Shape).Idx → EReal) : (⟨2, ![n, 1]⟩ : Shape).Idx → EReal :=
  fun i => y (ix1 ⟨(i 0).val, idx2_lt0 i⟩)

/-- A vector as a one-row array. -/
def rowOf {k : ℕ} (b : (⟨1, ![k]⟩ : Shape).Idx → EReal) : (⟨2, ![1, k]⟩ : Shape).Idx → EReal :=
  fun i => b (ix1 ⟨(i 1).val, idx2_lt1 i⟩)

theorem colOf_ix2 {n : ℕ} (y : (⟨1, ![n]⟩ : Shape).Idx → EReal) (p : Fin n) (u : Fin 1) : colOf y (ix2 p u) = y (ix1 p) := rfl
theorem rowOf_ix2 {k : ℕ} (b : (⟨1, ![k]⟩ : Shape).Idx → EReal) (u : Fin 1) (q : Fin k) : rowOf b (ix2 u q) = b (ix1 q) := rfl

/-- The column view at an index is the vector at any index with the same row number. -/
theorem colOf_eq {n : ℕ} (y : (⟨1, ![n]⟩ : Shape).Idx → EReal) (i : (⟨2, ![n, 1]⟩ : Shape).Idx) (k : (⟨1, ![n]⟩ : Shape).Idx)
    (hk : (k 0).val = (i 0).val) : colOf y i = y k :=
  congrArg y (funext fun a => Fin.ext (match a with | ⟨0, _⟩ => hk.symm))

/-- The row view at an index is the vector at any index with the same column number. -/
theorem rowOf_eq {k : ℕ} (b : (⟨1, ![k]⟩ : Shape).Idx → EReal) (i : (⟨2, ![1, k]⟩ : Shape).Idx) (l : (⟨1, ![k]⟩ : Shape).Idx)
    (hl : (l 0).val = (i 1).val) : rowOf b i = b l :=
  congrArg b (funext fun a => Fin.ext (match a with | ⟨0, _⟩ => hl.symm))

/-- A reshape of a vector to one column is its column view. -/
theorem shapeCast_col {n : ℕ} (y : (⟨1, ![n]⟩ : Shape).Idx → EReal) (h : (⟨1, ![n]⟩ : Shape).ShapeCasts ⟨2, ![n, 1]⟩) :
    shapeCast ⟨2, ![n, 1]⟩ y h = colOf y := by
  funext i
  obtain ⟨p, u, rfl⟩ : ∃ (p : Fin n) (u : Fin 1), i = ix2 p u := ⟨i 0, i 1, eq_ix2 i⟩
  rw [shapeCast_a_a1_apply, colOf_ix2]

/-- A reshape of a vector to one row is its row view. -/
theorem shapeCast_row {k : ℕ} (b : (⟨1, ![k]⟩ : Shape).Idx → EReal) (h : (⟨1, ![k]⟩ : Shape).ShapeCasts ⟨2, ![1, k]⟩) :
    shapeCast ⟨2, ![1, k]⟩ b h = rowOf b := by
  funext i
  obtain ⟨u, q, rfl⟩ : ∃ (u : Fin 1) (q : Fin k), i = ix2 u q := ⟨i 0, i 1, eq_ix2 i⟩
  rw [shapeCast_a_1a_apply, rowOf_ix2]

end RowCol

end
-- ==== Proof.LibMinReduce.lean ====
/-
  A minimum taken along one axis of a rank-2 array of extended reals, read at coordinates: the reduction at a row (a
  column) is the fold of `min` from the accumulator's value over that row's (column's) entries.  Over generic extents;
  indices are built from coordinates.
-/
import Idealize.ShloMosaic.Lib.ValueIdx
import Idealize.ShloMosaic.PureOps.Ideal.Laws

noncomputable section

namespace MinReduce

open Idealize.ShloMosaic Idealize.ShloMosaic.ValueIdx

variable {φ : FTy}

/-- Along the last axis of two: the entry at row `i` is the fold of `min` over the row. -/
theorem min_ab_1 {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.minimumf.neutral φ hφ)
    (i : Fin a) :
    multiReduction .minimumf [1] ⟨1, ![a]⟩ src acc h hφ hacc (ix1 i)
      = (Finset.univ : Finset (Fin b)).fold min (Ideal.ofBits φ acc) (fun k => src (ix2 i k)) := by
  rw [multiReduction_minimumf_eq_fold]
  refine (h.fold_filter_drop_single FloatOps.minimumf _ src (ix1 i)).trans ?_
  exact Finset.fold_congr fun k _ => congrArg src (funext fun ax => Fin.ext (by
    match ax with | ⟨0, _⟩ => rfl | ⟨1, _⟩ => rfl))

/-- Along the first axis of two: the entry at column `j` is the fold of `min` over the column. -/
theorem min_ab_0 {a b : ℕ} (src : FVec Ideal ⟨2, ![a, b]⟩ φ) (acc : BitVec φ.bits)
    (h : (⟨2, ![a, b]⟩ : Shape).Reduces [0] ⟨1, ![b]⟩) (hφ : FKind.Formats φ) (hacc : acc = FKind.minimumf.neutral φ hφ)
    (j : Fin b) :
    multiReduction .minimumf [0] ⟨1, ![b]⟩ src acc h hφ hacc (ix1 j)
      = (Finset.univ : Finset (Fin a)).fold min (Ideal.ofBits φ acc) (fun k => src (ix2 k j)) := by
  rw [multiReduction_minimumf_eq_fold]
  refine (h.fold_filter_drop_single FloatOps.minimumf _ src (ix1 j)).trans ?_
  exact Finset.fold_congr fun k _ => congrArg src (funext fun ax => Fin.ext (by
    match ax with | ⟨0, _⟩ => rfl | ⟨1, _⟩ => rfl))

end MinReduce

end
-- ==== Proof.Payload.lean ====
/-
  The kernel body's pure values, entry by entry, on the extended reals.

  The body holds one tile of 1024 points `x` (a `[1, 1024, 3]` block) and, per loop trip, one chunk of 512 points `y`
  (a `[1, 3, 512]` block, coordinates along the middle axis).  For the tile's row `r` and the chunk's lane `l` it forms
  `max (|x_r|² + |y_l|² + (x_r0·(−2 y_l0) + x_r1·(−2 y_l1) + x_r2·(−2 y_l2))) 0`, the squared distance with the factor
  `−2` folded into `y`'s coordinates; then the minimum of that array along each row (joined with the running row
  minimum) and along each column (joined with the running column minimum).  Each lemma below reads one of these values at
  an index written by its coordinates.
-/
import proofs.«101057_j25074019074108_2_alg».proof.Proof.Gen.KernelIdeal.Skeleton
import proofs.«101057_j25074019074108_2_alg».proof.Proof.Dist
import proofs.«101057_j25074019074108_2_alg».proof.Proof.LibLayout
import proofs.«101057_j25074019074108_2_alg».proof.Proof.LibRowCol
import proofs.«101057_j25074019074108_2_alg».proof.Proof.LibMinReduce
import Idealize.ShloMosaic.Lib.Pipeline.Value
import Idealize.ShloMosaic.Lib.ValueIdx
import Idealize.ShloMosaic.Lib.ValueLayout

noncomputable section

open scoped BigOperators

namespace Cert.KernelIdeal.Body

open Idealize.ShloMosaic Idealize.ShloMosaic.ValueIdx Cert.KernelIdeal Cert.KernelIdeal.Gen

/-! ## The tile of `x`: its three coordinate columns and its squared norms -/

/-- Coordinate 0 of row `r`. -/
theorem xcoord0 (v0 : Vec Ideal S1x1024x3 .f32) (r : Fin 1024) (u : Fin 1) :
    k0_pay2 v0 (ix2 r u) = v0 (ix3 (0 : Fin 1) r (0 : Fin 3)) := by
  unfold k0_pay2 k0_pay1
  refine (slice2_axis1_apply 0 _ _ r u (0 : Fin 3) (by have := u.isLt; show (0 : ℕ) = 0 + u.val; omega)).trans ?_
  exact shapeCast_1ab_ab_apply v0 _ r 0

/-- Coordinate 1 of row `r`. -/
theorem xcoord1 (v0 : Vec Ideal S1x1024x3 .f32) (r : Fin 1024) (u : Fin 1) :
    k0_pay3 v0 (ix2 r u) = v0 (ix3 (0 : Fin 1) r (1 : Fin 3)) := by
  unfold k0_pay3 k0_pay1
  refine (slice2_axis1_apply 1 _ _ r u (1 : Fin 3) (by have := u.isLt; show (1 : ℕ) = 1 + u.val; omega)).trans ?_
  exact shapeCast_1ab_ab_apply v0 _ r 1

/-- Coordinate 2 of row `r`. -/
theorem xcoord2 (v0 : Vec Ideal S1x1024x3 .f32) (r : Fin 1024) (u : Fin 1) :
    k0_pay4 v0 (ix2 r u) = v0 (ix3 (0 : Fin 1) r (2 : Fin 3)) := by
  unfold k0_pay4 k0_pay1
  refine (slice2_axis1_apply 2 _ _ r u (2 : Fin 3) (by have := u.isLt; show (2 : ℕ) = 2 + u.val; omega)).trans ?_
  exact shapeCast_1ab_ab_apply v0 _ r 2

/-- The squared norm of row `r`: the sum of its three squared coordinates. -/
theorem xsq (v0 : Vec Ideal S1x1024x3 .f32) (r : Fin 1024) (u : Fin 1) :
    k0_pay5 v0 (ix2 r u) = ∑ d : Fin 3, v0 (ix3 (0 : Fin 1) r d) * v0 (ix3 (0 : Fin 1) r d) := by
  unfold k0_pay5 k0_pay1
  refine (RowCol.shapeCast_a_a1_apply _ _ r u).trans ?_
  refine (PushPull.Layout.sum_ab_1 _ _ _ _ _ r).trans ?_
  refine Finset.sum_congr rfl fun d _ => ?_
  show shapeCast S1024x3 v0 _ (ix2 r d) * shapeCast S1024x3 v0 _ (ix2 r d) = _
  rw [shapeCast_1ab_ab_apply]

/-! ## The chunk of `y` -/

/-- Coordinate `d` of the chunk's lane `l`, cut out of the chunk as a one-row array. -/
theorem ycoord (v23 : Vec Ideal S1x3x512 .f32) (o : ℕ) (d : Fin 3) (hd : d.val = o)
    (h : S3x512.Slices ![o, 0] S1x512) (u : Fin 1) (l : Fin 512) :
    extractStridedSlice S1x512 ![o, 0] (shapeCast S3x512 v23 shapeCasts_S1x3x512_S3x512) h (ix2 u l)
      = v23 (ix3 (0 : Fin 1) d l) := by
  refine (slice2_axis0_apply o _ _ u l d (by have := u.isLt; omega)).trans ?_
  exact shapeCast_1ab_ab_apply v23 _ d l

/-- The squared norm of the chunk's lane `l`. -/
theorem ysq (v23 : Vec Ideal S1x3x512 .f32) (u : Fin 1) (l : Fin 512) :
    shapeCast S1x512 (multiReduction (F := Ideal) .add [0] S512
        (mulf (shapeCast S3x512 v23 shapeCasts_S1x3x512_S3x512 : FVec Ideal S3x512 .f32)
          (shapeCast S3x512 v23 shapeCasts_S1x3x512_S3x512 : FVec Ideal S3x512 .f32))
        0x00000000#32 reduces_S3x512_S512 (.inl rfl) rfl) shapeCasts_S512_S1x512 (ix2 u l)
      = ∑ d : Fin 3, v23 (ix3 (0 : Fin 1) d l) * v23 (ix3 (0 : Fin 1) d l) := by
  refine (shapeCast_a_1a_apply _ _ u l).trans ?_
  refine (PushPull.Layout.sum_ab_0 _ _ _ _ _ l).trans ?_
  refine Finset.sum_congr rfl fun d _ => ?_
  show shapeCast S3x512 v23 _ (ix2 d l) * shapeCast S3x512 v23 _ (ix2 d l) = _
  rw [shapeCast_1ab_ab_apply]

/-! ## The chunk of the distance array -/

/-- The distance array's entry at the tile's row `r` and the chunk's lane `l`, from the tile's columns and norms. -/
theorem dist_entry (v2 v3 v4 v7 : FVec Ideal S1024x1 .f32) (v23 : Vec Ideal S1x3x512 .f32) (r : Fin 1024) (l : Fin 512) :
    k0_pay10 v2 v3 v4 v7 v23 (ix2 r l)
      = max ((v7 (ix2 r (0 : Fin 1)) + ∑ d : Fin 3, v23 (ix3 (0 : Fin 1) d l) * v23 (ix3 (0 : Fin 1) d l))
          + ((v2 (ix2 r (0 : Fin 1)) * (((-2 : ℝ) : EReal) * v23 (ix3 (0 : Fin 1) (0 : Fin 3) l))
              + v3 (ix2 r (0 : Fin 1)) * (((-2 : ℝ) : EReal) * v23 (ix3 (0 : Fin 1) (1 : Fin 3) l)))
            + v4 (ix2 r (0 : Fin 1)) * (((-2 : ℝ) : EReal) * v23 (ix3 (0 : Fin 1) (2 : Fin 3) l)))) 0 := by
  unfold k0_pay10
  dsimp only
  simp only [maximumf_apply, addf_apply, mulf_apply, broadcast_apply, RowCol.broadcastTo_a1_ab_apply,
    broadcastTo_1b_ab_apply]
  rw [ysq v23, ycoord v23 0 0 rfl, ycoord v23 1 1 rfl, ycoord v23 2 2 rfl]
  rw [show FloatOps.ofBits (F := Ideal) .f32 0xC0000000#32 = ((-2 : ℝ) : EReal) from Chamfer.ofBits_neg_two,
    show FloatOps.ofBits (F := Ideal) .f32 0x00000000#32 = (0 : EReal) from Ideal.ofBits_zero_f32]

/-- With the tile's columns and norms read off the tile: the entry is the squared distance between row `r` of the
    tile and lane `l` of the chunk, in the arrangement with `−2` folded into `y`. -/
theorem dist_entry_tile (v0 : Vec Ideal S1x1024x3 .f32) (v23 : Vec Ideal S1x3x512 .f32) (r : Fin 1024) (l : Fin 512) :
    k0_pay10 (k0_pay2 v0) (k0_pay3 v0) (k0_pay4 v0) (k0_pay5 v0) v23 (ix2 r l)
      = Chamfer.dKer (fun d => v0 (ix3 (0 : Fin 1) r d)) (fun d => v23 (ix3 (0 : Fin 1) d l)) := by
  rw [dist_entry, xcoord0, xcoord1, xcoord2, xsq]
  rfl

/-! ## The chunk's minima, and the stores' payloads -/

/-- The scratch's new value at row `r`: the running row minimum against the chunk's row minimum. -/
theorem rowmin_entry (v0 : Vec Ideal S1x1024x3 .f32) (v23 : Vec Ideal S1x3x512 .f32) (v54 : Vec Ideal S1024x1 .f32)
    (r : Fin 1024) (u : Fin 1) :
    k0_pay11 (k0_pay2 v0) (k0_pay3 v0) (k0_pay4 v0) (k0_pay5 v0) v23 v54 (ix2 r u)
      = min (v54 (ix2 r u)) ((Finset.univ : Finset (Fin 512)).inf fun l =>
          Chamfer.dKer (fun d => v0 (ix3 (0 : Fin 1) r d)) (fun d => v23 (ix3 (0 : Fin 1) d l))) := by
  unfold k0_pay11
  dsimp only
  rw [shapeCast_self]
  simp only [minimumf_apply]
  refine congrArg (min _) ?_
  refine (RowCol.shapeCast_a_a1_apply _ _ r u).trans ?_
  refine (MinReduce.min_ab_1 _ _ _ _ _ r).trans ?_
  rw [Chamfer.ofBits_inf, Chamfer.fold_min_top]
  exact congrArg (Finset.inf Finset.univ) (funext fun l => dist_entry_tile v0 v23 r l)

/-- The chunk's column minimum at lane `l`. -/
theorem colmin_entry (v0 : Vec Ideal S1x1024x3 .f32) (v23 : Vec Ideal S1x3x512 .f32) (u : Fin 1) (l : Fin 512) :
    k0_pay12 (k0_pay2 v0) (k0_pay3 v0) (k0_pay4 v0) (k0_pay5 v0) v23 (ix2 u l)
      = (Finset.univ : Finset (Fin 1024)).inf fun r =>
          Chamfer.dKer (fun d => v0 (ix3 (0 : Fin 1) r d)) (fun d => v23 (ix3 (0 : Fin 1) d l)) := by
  unfold k0_pay12
  dsimp only
  refine (shapeCast_a_1a_apply _ _ u l).trans ?_
  refine (MinReduce.min_ab_0 _ _ _ _ _ l).trans ?_
  rw [Chamfer.ofBits_inf, Chamfer.fold_min_top]
  exact congrArg (Finset.inf Finset.univ) (funext fun r => dist_entry_tile v0 v23 r l)

/-- The column buffer's new value at a lane: what it held against the chunk's column minimum. -/
theorem colstore_entry (v62 : FVec Ideal S1x512 .f32) (v64 : Vec Ideal S1x1x512 .f32) (u u' : Fin 1) (l : Fin 512) :
    k0_pay8 v62 v64 (ix3 u u' l) = min (v64 (ix3 (0 : Fin 1) (0 : Fin 1) l)) (v62 (ix2 (0 : Fin 1) l)) := by
  have hu : u = 0 := Subsingleton.elim _ _
  have hu' : u' = 0 := Subsingleton.elim _ _
  subst hu hu'
  unfold k0_pay8
  refine (shapeCast_ab_1ab_apply _ _ 0 0 l).trans ?_
  simp only [minimumf_apply]
  rw [shapeCast_1ab_ab_apply]

/-- The output block of row minima is the scratch, row by row. -/
theorem rowout_entry (v16 : Vec Ideal S1024x1 .f32) (u : Fin 1) (r : Fin 1024) (u' : Fin 1) :
    k0_pay9 v16 (ix3 u r u') = v16 (ix2 r u') := by
  unfold k0_pay9
  exact shapeCast_ab_1ab_apply _ _ u r u'

/-- The scratch starts at `+∞`. -/
theorem scratch_init (i : S1024x1.Idx) : k0_pay6 (F := Ideal) i = (⊤ : EReal) := by
  unfold k0_pay6
  rw [shapeCast_self]
  exact Chamfer.ofBits_inf

/-- The column buffer starts at `+∞`. -/
theorem col_init (u u' : Fin 1) (mm : Fin 4096) : k0_pay7 (F := Ideal) (ix3 u u' mm) = (⊤ : EReal) := by
  unfold k0_pay7
  refine (shapeCast_ab_1ab_apply _ _ u u' mm).trans ?_
  exact Chamfer.ofBits_inf

end Cert.KernelIdeal.Body

end
-- ==== Proof.Trip.lean ====
/-
  The body's loop over the eight chunks of 512 points `y`, read as values.

  One trip stores twice: into the scratch (all 1024 rows) the running row minimum joined with the chunk's row minimum,
  and into the trip's 512 lanes of the column buffer what those lanes held joined with the chunk's column minimum.
  So after `k` trips the scratch's row `r` holds its starting value against the minimum of the distances from row `r`
  to the first `512·k` points `y`, and the column buffer's lane `m` holds, if `m < 512·k`, its starting value against the
  minimum over the tile's 1024 rows of the distance to point `m`, and its starting value otherwise.
-/
import proofs.«101057_j25074019074108_2_alg».proof.Proof.Gen.KernelIdeal.Loops
import proofs.«101057_j25074019074108_2_alg».proof.Proof.Payload
import Idealize.ShloMosaic.Lib.Pipeline.Value
import Idealize.ShloMosaic.Lib.Pipeline.FrameBody
import Idealize.ShloMosaic.Lib.Writes

set_option maxRecDepth 16384

noncomputable section

open scoped BigOperators

namespace Cert.KernelIdeal.Body

open Idealize.ShloMosaic Idealize.ShloMosaic.ValueIdx Idealize.ShloMosaic.Tactic Cert.KernelIdeal Cert.KernelIdeal.Gen

/-! ## Small facts about rectangles and stores -/

theorem zeros2 : (![0, 0] : Fin 2 → ℕ) = fun _ => 0 := by funext a; fin_cases a <;> rfl
theorem zeros3 : (![0, 0, 0] : Fin 3 → ℕ) = fun _ => 0 := by funext a; fin_cases a <;> rfl

/-- A store through the whole shape, made last, leaves its payload, whatever was stored before. -/
theorem read_writes_whole {sig : RefSig} {κ : Kind} {sp : Space} {S : Shape} {e : EltTy} {Val : EltTy → Type}
    (v : View sig κ sp S e) (f : v.ty.Contents Val) {off : Fin S.rank → ℕ} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  subst h
  funext y
  have e := View.read_writes_cons_emb v f (Rect.whole S) w L y
  rw [Rect.emb_whole_apply] at e
  exact e

/-- The loop runs eight trips. -/
theorem trips_eq : k0_t1_loop.trips = 8 := by decide

/-- The squared distance between row `r` of a tile of `x` and point `m` of a `[1, 3, M]` block of `y`. -/
def tileDist (v0 : Vec Ideal S1x1024x3 .f32) (Y : Vec Ideal S1x3x4096 .f32) (r : Fin 1024) (m : Fin 4096) : EReal :=
  Chamfer.dKer (fun d => v0 (ix3 (0 : Fin 1) r d)) (fun d => Y (ix3 (0 : Fin 1) d m))

/-- Trip `k`'s chunk of the `y` block: lane `l` of the chunk is point `512·k + l` of the block. -/
theorem ld_chunk (Y : Vec Ideal S1x3x4096 .f32) (k : Fin k0_t1_loop.trips) (d : Fin 3) (l : Fin 512) (h : 512 * k.val + l.val < 4096) :
    View.ld (Val := Elt Ideal) (e' := .f32) Y (Rect.unit (k0_off1 k) S1x3x512.size (k0_off1_inb k)) (ix3 (0 : Fin 1) d l)
      = Y (ix3 (0 : Fin 1) d ⟨512 * k.val + l.val, h⟩) := by
  refine congrArg Y (funext fun a => Fin.ext ?_)
  have e := k0_off1_eq k
  match a with
  | ⟨0, _⟩ => show k0_off1 k 0 + 1 * 0 = 0; rw [e]; rfl
  | ⟨1, _⟩ => show k0_off1 k 1 + 1 * d.val = d.val; rw [e]; show 0 + 1 * d.val = d.val; omega
  | ⟨2, _⟩ => show k0_off1 k 2 + 1 * l.val = 512 * k.val + l.val; rw [e]; show 512 * k.val + 1 * l.val = _; omega

/-- Trip `k`'s lanes of the column buffer: lane `l` of the trip's slice is lane `512·k + l` of the buffer. -/
theorem ld_lanes (A : Vec Ideal S1x1x4096 .f32) (k : Fin k0_t1_loop.trips) (l : Fin 512) (h : 512 * k.val + l.val < 4096) :
    View.ld (Val := Elt Ideal) (e' := .f32) A (Rect.unit (k0_off2 k) S1x1x512.size (k0_off2_inb k)) (ix3 (0 : Fin 1) (0 : Fin 1) l)
      = A (ix3 (0 : Fin 1) (0 : Fin 1) ⟨512 * k.val + l.val, h⟩) := by
  refine congrArg A (funext fun a => Fin.ext ?_)
  have e := k0_off2_eq k
  match a with
  | ⟨0, _⟩ => show k0_off2 k 0 + 1 * 0 = 0; rw [e]; rfl
  | ⟨1, _⟩ => show k0_off2 k 1 + 1 * 0 = 0; rw [e]; rfl
  | ⟨2, _⟩ => show k0_off2 k 2 + 1 * l.val = 512 * k.val + l.val; rw [e]; show 512 * k.val + 1 * l.val = _; omega

section Loop

variable (c : Dev nD) (i : grid0.Coords) (arg2 : Memref sig .tc .vmem S1x1024x3 .f32) (harg2 : arg2.IsWhole) (arg3 : Memref sig .tc .vmem S1x3x4096 .f32) (harg3 : arg3.IsWhole) (arg4 : Memref sig .tc .vmem S1x1024x1 .f32) (harg4 : arg4.IsWhole) (arg5 : Memref sig .tc .vmem S1x1x4096 .f32) (harg5 : arg5.IsWhole) (arg6 : Memref sig .tc .vmem S1024x1 .f32) (harg6 : arg6.IsWhole)
  (v0 : Vec Ideal S1x1024x3 .f32) (X3 : BufTy.Contents (Elt Ideal) arg3.view.ty)

/-! ## One trip's two stores -/

/-- What one trip stores, given the contents `f5`, `f6` it finds in the column buffer and the scratch: the trip's
    lanes of the column buffer joined with the chunk's column minima, and the whole scratch joined with the chunk's row
    minima. -/
theorem trip_pieces (𝒱 : Variants) (bd : Option 𝒱.V) (k : Fin k0_t1_loop.trips)
    (f5 : BufTy.Contents (Elt Ideal) arg5.view.ty) (f6 : BufTy.Contents (Elt Ideal) arg6.view.ty) :
    tripL_k0_t1 (F := Ideal) 𝒱 c bd i arg2 harg2 arg3 harg3 arg4 harg4 arg5 harg5 arg6 harg6 v0 X3 k f5 f6
      = ([⟨Rect.unit (k0_off2 k) S1x1x512.size (k0_off2_inb k),
            k0_pay8 (k0_pay12 (k0_pay2 v0) (k0_pay3 v0) (k0_pay4 v0) (k0_pay5 v0)
                (View.ld (arg3.view.read (Elt Ideal) X3) (Rect.unit (k0_off1 k) S1x3x512.size (k0_off1_inb k))))
              (View.ld (arg5.view.read (Elt Ideal) f5) (Rect.unit (k0_off2 k) S1x1x512.size (k0_off2_inb k)))⟩],
         [⟨Rect.unit ![0, 0] S1024x1.size inb_S1024x1_S1024x1_0_0,
            k0_pay11 (k0_pay2 v0) (k0_pay3 v0) (k0_pay4 v0) (k0_pay5 v0)
              (View.ld (arg3.view.read (Elt Ideal) X3) (Rect.unit (k0_off1 k) S1x3x512.size (k0_off1_inb k)))
              (View.ld (arg6.view.read (Elt Ideal) f6) (Rect.unit ![0, 0] S1024x1.size inb_S1024x1_S1024x1_0_0))⟩]) := by
  unfold tripL_k0_t1 trip_k0_t1
  dsimp only
  sl_unfold_run_names
  rfl

/-! ## The state after `k` trips -/

variable (G5 : BufTy.Contents (Elt Ideal) arg5.view.ty) (G6 : BufTy.Contents (Elt Ideal) arg6.view.ty)

/-- After `k` trips, started from contents `G5` (column buffer) and `G6` (scratch): row `r` of the scratch is its start
    against the minimum of the distances from row `r` to the first `512·k` points; lane `m` of the column buffer is its
    start against the minimum over the tile's rows of the distance to point `m` once `m`'s chunk has been visited, and its
    start before. -/
theorem loop_state (k : ℕ) (hk : k ≤ 8) :
    (∀ (r : Fin 1024) (u : Fin 1),
      arg6.view.read (Elt Ideal) (arg6.view.writes (Elt Ideal) G6 (pb_k0_t1 (F := Ideal) Variants.none c none i arg2 harg2 arg3 harg3 arg4 harg4 arg5 harg5 arg6 harg6 v0 X3 G5 G6 k).2) (ix2 r u)
        = min (arg6.view.read (Elt Ideal) G6 (ix2 r u))
            ((Finset.univ.filter fun mm : Fin 4096 => mm.val < 512 * k).inf
              fun mm => tileDist v0 (arg3.view.read (Elt Ideal) X3) r mm)) ∧
    (∀ mm : Fin 4096,
      arg5.view.read (Elt Ideal) (arg5.view.writes (Elt Ideal) G5 (pb_k0_t1 (F := Ideal) Variants.none c none i arg2 harg2 arg3 harg3 arg4 harg4 arg5 harg5 arg6 harg6 v0 X3 G5 G6 k).1) (ix3 (0 : Fin 1) (0 : Fin 1) mm)
        = if mm.val < 512 * k then
            min (arg5.view.read (Elt Ideal) G5 (ix3 (0 : Fin 1) (0 : Fin 1) mm))
              ((Finset.univ : Finset (Fin 1024)).inf fun r => tileDist v0 (arg3.view.read (Elt Ideal) X3) r mm)
          else arg5.view.read (Elt Ideal) G5 (ix3 (0 : Fin 1) (0 : Fin 1) mm)) := by
  induction k with
  | zero =>
    refine ⟨fun r u => ?_, fun mm => ?_⟩
    · rw [show (pb_k0_t1 (F := Ideal) Variants.none c none i arg2 harg2 arg3 harg3 arg4 harg4 arg5 harg5 arg6 harg6 v0 X3 G5 G6 0).2 = [] from rfl, View.writes_nil, Chamfer.inf_chunk_zero, min_top_right]
    · rw [show (pb_k0_t1 (F := Ideal) Variants.none c none i arg2 harg2 arg3 harg3 arg4 harg4 arg5 harg5 arg6 harg6 v0 X3 G5 G6 0).1 = [] from rfl, View.writes_nil, if_neg (by omega)]
  | succ k ih =>
    obtain ⟨ih6, ih5⟩ := ih (by omega)
    have hk8 : k < 8 := by omega
    obtain ⟨kk, rfl⟩ : ∃ kk : Fin k0_t1_loop.trips, kk.val = k := ⟨⟨k, by rw [trips_eq]; exact hk8⟩, rfl⟩
    have hsucc := pb_k0_t1_succ (F := Ideal) Variants.none c none i arg2 harg2 arg3 harg3 arg4 harg4 arg5 harg5 arg6 harg6 v0 X3 G5 G6 kk
    rw [trip_pieces] at hsucc
    refine ⟨fun r u => ?_, fun mm => ?_⟩
    · -- the scratch: one whole store over the state after `k` trips
      rw [hsucc]
      dsimp only
      rw [View.writes_append, read_writes_whole _ _ zeros2, rowmin_entry, View.ld_unit_zero zeros2, ih6, min_assoc]
      refine congrArg (min _) ?_
      have hc := Chamfer.inf_chunk_succ (N := 4096) (w := 512) (fun mm => tileDist v0 (arg3.view.read (Elt Ideal) X3) r mm) kk.val (by omega)
      rw [← hc]
      refine congrArg (min _) (congrArg (Finset.inf Finset.univ) (funext fun l => ?_))
      unfold tileDist
      refine congrArg (Chamfer.dKer _) (funext fun d => ?_)
      exact ld_chunk _ kk d l (by have := l.isLt; omega)
    · -- the column buffer: one store through the trip's 512 lanes over the state after `k` trips
      rw [hsucc]
      dsimp only
      rw [View.writes_append]
      have hm4 := mm.isLt
      by_cases hin : 512 * kk.val ≤ mm.val ∧ mm.val < 512 * kk.val + 512
      · -- a lane of this trip's chunk
        have hl : mm.val - 512 * kk.val < 512 := by omega
        have hemb : (Rect.unit (s := S1x1x4096) (k0_off2 kk) S1x1x512.size (k0_off2_inb kk)).emb (ix3 (0 : Fin 1) (0 : Fin 1) (⟨mm.val - 512 * kk.val, hl⟩ : Fin 512))
            = ix3 (0 : Fin 1) (0 : Fin 1) mm := by
          funext a
          refine Fin.ext ?_
          have e := k0_off2_eq kk
          match a with
          | ⟨0, _⟩ => show k0_off2 kk 0 + 1 * 0 = 0; rw [e]; rfl
          | ⟨1, _⟩ => show k0_off2 kk 1 + 1 * 0 = 0; rw [e]; rfl
          | ⟨2, _⟩ => show k0_off2 kk 2 + 1 * (mm.val - 512 * kk.val) = mm.val; rw [e]; show 512 * kk.val + 1 * (mm.val - 512 * kk.val) = mm.val; omega
        have hlt : 512 * kk.val + (mm.val - 512 * kk.val) < 4096 := by omega
        have hmm : (⟨512 * kk.val + (mm.val - 512 * kk.val), hlt⟩ : Fin 4096) = mm := Fin.ext (by show 512 * kk.val + (mm.val - 512 * kk.val) = mm.val; omega)
        conv_lhs => rw [← hemb]
        rw [View.read_writes_cons_emb, colstore_entry, colmin_entry, ld_lanes _ kk _ hlt, hmm, ih5 mm,
          if_neg (by omega), if_pos (by omega)]
        refine congrArg (min (_ : EReal)) (congrArg (Finset.inf Finset.univ) (funext fun r => ?_))
        unfold tileDist
        refine congrArg (Chamfer.dKer _) (funext fun d => ?_)
        rw [ld_chunk _ kk d _ hlt, hmm]
      · -- a lane of another chunk: untouched by this trip
        rw [View.read_writes_apply_of_forall_not_mem _ _ _ _ (fun p hp => by
          rw [List.mem_singleton] at hp
          subst hp
          rw [Rect.mem_set_unit]
          intro hall
          have h2 := hall 2
          have e := k0_off2_eq kk
          rw [e] at h2
          have h2' : 512 * kk.val ≤ mm.val ∧ mm.val < 512 * kk.val + 512 := h2
          exact hin h2'), ih5 mm]
        by_cases hlt : mm.val < 512 * kk.val
        · rw [if_pos hlt, if_pos (by omega)]
        · rw [if_neg hlt, if_neg (by omega)]

end Loop

end Cert.KernelIdeal.Body

end
-- ==== Proof.Point.lean ====
/-
  What the body leaves in its two output blocks at one grid point, index by index.

  At a point the body holds a tile of 1024 points `x` and the batch's whole `[1, 3, 4096]` block of `y`.  Whatever the
  point, the first output block (one value per tile row) ends as the minimum over all 4096 points `y` of the distance
  from that row.  The second (one value per point `y`) is a running minimum across the tiles of a batch: at a batch's
  first tile it is set to `+∞` first and so ends as the minimum over the tile's rows; at a later tile it ends as what
  the tile before left against the minimum over this tile's rows.
-/
import proofs.«101057_j25074019074108_2_alg».proof.Proof.Gen.KernelIdeal.Frame
import proofs.«101057_j25074019074108_2_alg».proof.Proof.Trip

set_option maxRecDepth 16384

noncomputable section

open scoped BigOperators

namespace Cert.KernelIdeal.Body

open Idealize.ShloMosaic Idealize.ShloMosaic.ValueIdx Idealize.ShloMosaic.Tactic Cert.KernelIdeal Cert.KernelIdeal.Gen

/-- The store that sets the scratch to `+∞`. -/
abbrev scratchInit : View.Piece (Elt Ideal) S1024x1 .f32 :=
  ⟨Rect.unit ![0, 0] S1024x1.size inb_S1024x1_S1024x1_0_0, k0_pay6 (F := Ideal)⟩
/-- The store that sets the column buffer to `+∞`. -/
abbrev colInit : View.Piece (Elt Ideal) S1x1x4096 .f32 :=
  ⟨Rect.unit ![0, 0, 0] S1x1x4096.size inb_S1x1x4096_S1x1x4096_0_0_0, k0_pay7 (F := Ideal)⟩

section Cases

variable (c : Dev nD) (i : grid0.Coords) (arg2 : Memref sig .tc .vmem S1x1024x3 .f32) (harg2 : arg2.IsWhole) (arg3 : Memref sig .tc .vmem S1x3x4096 .f32) (harg3 : arg3.IsWhole) (arg4 : Memref sig .tc .vmem S1x1024x1 .f32) (harg4 : arg4.IsWhole) (arg5 : Memref sig .tc .vmem S1x1x4096 .f32) (harg5 : arg5.IsWhole) (arg6 : Memref sig .tc .vmem S1024x1 .f32) (harg6 : arg6.IsWhole)
  (x0 : Vec Ideal S1x1024x3 .f32) (x1 : Vec Ideal S1x3x4096 .f32)

/-- The tile as the body loads it is the tile. -/
theorem tile_loaded : (View.ld (Val := Elt Ideal) (e' := .f32) (arg2.view.read (Elt Ideal) (harg2.unread x0)) (Rect.unit ![0, 0, 0] S1x1024x3.size inb_S1x1024x3_S1x1024x3_0_0_0)) = x0 := by
  rw [harg2.read_unread, View.ld_unit_zero zeros3]

/-- After the loop's eight trips, started from the scratch at `+∞` and the column buffer at any contents `G5`: the
    scratch's row `r` is the minimum of the distances from row `r` to all 4096 points, and the column buffer's lane `m`
    is its start against the minimum over the tile's rows of the distance to point `m`. -/
theorem after_loop (G5 : BufTy.Contents (Elt Ideal) arg5.view.ty) :
    (∀ (r : Fin 1024) (u : Fin 1),
      arg6.view.read (Elt Ideal) (arg6.view.writes (Elt Ideal) arg6.view.junk
          ((pb_k0_t1 (F := Ideal) Variants.none c none i arg2 harg2 arg3 harg3 arg4 harg4 arg5 harg5 arg6 harg6 x0 (harg3.unread x1) G5
              (arg6.view.writes (Elt Ideal) arg6.view.junk [scratchInit]) k0_t1_loop.trips).2 ++ [scratchInit])) (ix2 r u)
        = (Finset.univ : Finset (Fin 4096)).inf fun mm => tileDist x0 x1 r mm) ∧
    (∀ mm : Fin 4096,
      arg5.view.read (Elt Ideal) (arg5.view.writes (Elt Ideal) G5
          (pb_k0_t1 (F := Ideal) Variants.none c none i arg2 harg2 arg3 harg3 arg4 harg4 arg5 harg5 arg6 harg6 x0 (harg3.unread x1) G5
              (arg6.view.writes (Elt Ideal) arg6.view.junk [scratchInit]) k0_t1_loop.trips).1) (ix3 (0 : Fin 1) (0 : Fin 1) mm)
        = min (arg5.view.read (Elt Ideal) G5 (ix3 (0 : Fin 1) (0 : Fin 1) mm))
            ((Finset.univ : Finset (Fin 1024)).inf fun r => tileDist x0 x1 r mm)) := by
  obtain ⟨h6, h5⟩ := loop_state c i arg2 harg2 arg3 harg3 arg4 harg4 arg5 harg5 arg6 harg6 x0 (harg3.unread x1) G5 (arg6.view.writes (Elt Ideal) arg6.view.junk [scratchInit]) 8 le_rfl
  rw [harg3.read_unread] at h6 h5
  rw [trips_eq]
  refine ⟨fun r u => ?_, fun mm => ?_⟩
  · rw [View.writes_append, h6, read_writes_whole _ _ zeros2, scratch_init, min_top_left]
    exact Chamfer.inf_chunk_all _ (by norm_num)
  · rw [h5 mm, if_pos (by have := mm.isLt; omega)]

/-! ## A batch's first tile -/

/-- The piece lists the run finds at a batch's first tile. -/
theorem first_pieces (hc0 : cond0_0 i) :
    (kernelRun0_A (F := Ideal) c i arg2 harg2 arg3 harg3 arg4 harg4 arg5 harg5 arg6 harg6 hc0 x0 x1).1
        = ([⟨Rect.unit ![0, 0, 0] S1x1024x1.size inb_S1x1024x1_S1x1024x1_0_0_0,
            k0_pay9 (View.ld (Val := Elt Ideal) (e' := .f32) (arg6.view.read (Elt Ideal) (arg6.view.writes (Elt Ideal) arg6.view.junk ((pb_k0_t1 (F := Ideal) Variants.none c none i arg2 harg2 arg3 harg3 arg4 harg4 arg5 harg5 arg6 harg6 (View.ld (Val := Elt Ideal) (e' := .f32) (arg2.view.read (Elt Ideal) (harg2.unread x0)) (Rect.unit ![0, 0, 0] S1x1024x3.size inb_S1x1024x3_S1x1024x3_0_0_0)) (harg3.unread x1) (arg5.view.writes (Elt Ideal) arg5.view.junk [colInit]) (arg6.view.writes (Elt Ideal) arg6.view.junk [scratchInit]) k0_t1_loop.trips).2 ++ [scratchInit])))
              (Rect.unit ![0, 0] S1024x1.size inb_S1024x1_S1024x1_0_0))⟩] : List (View.Piece (Elt Ideal) S1x1024x1 .f32))
    ∧ (kernelRun0_A (F := Ideal) c i arg2 harg2 arg3 harg3 arg4 harg4 arg5 harg5 arg6 harg6 hc0 x0 x1).2.1 = (pb_k0_t1 (F := Ideal) Variants.none c none i arg2 harg2 arg3 harg3 arg4 harg4 arg5 harg5 arg6 harg6 (View.ld (Val := Elt Ideal) (e' := .f32) (arg2.view.read (Elt Ideal) (harg2.unread x0)) (Rect.unit ![0, 0, 0] S1x1024x3.size inb_S1x1024x3_S1x1024x3_0_0_0)) (harg3.unread x1) (arg5.view.writes (Elt Ideal) arg5.view.junk [colInit]) (arg6.view.writes (Elt Ideal) arg6.view.junk [scratchInit]) k0_t1_loop.trips).1 ++ [colInit] := by
  unfold kernelRun0_A
  dsimp only
  exact ⟨rfl, rfl⟩

/-- At a batch's first tile, the row block: row `r` is the minimum over all points `y`. -/
theorem first_row (hc0 : cond0_0 i) (u : Fin 1) (r : Fin 1024) (u' : Fin 1) :
    out0_A_2 (F := Ideal) c i arg2 harg2 arg3 harg3 arg4 harg4 arg5 harg5 arg6 harg6 hc0 x0 x1 (ix3 u r u')
      = (Finset.univ : Finset (Fin 4096)).inf fun mm => tileDist x0 x1 r mm := by
  unfold out0_A_2
  rw [(first_pieces c i arg2 harg2 arg3 harg3 arg4 harg4 arg5 harg5 arg6 harg6 x0 x1 hc0).1, read_writes_whole _ _ zeros3, rowout_entry, View.ld_unit_zero zeros2, tile_loaded]
  exact (after_loop c i arg2 harg2 arg3 harg3 arg4 harg4 arg5 harg5 arg6 harg6 x0 x1 _).1 r u'

/-- At a batch's first tile, the column block: lane `m` is the minimum over the tile's rows. -/
theorem first_col (hc0 : cond0_0 i) (mm : Fin 4096) :
    out0_A_3 (F := Ideal) c i arg2 harg2 arg3 harg3 arg4 harg4 arg5 harg5 arg6 harg6 hc0 x0 x1 (ix3 (0 : Fin 1) (0 : Fin 1) mm)
      = (Finset.univ : Finset (Fin 1024)).inf fun r => tileDist x0 x1 r mm := by
  unfold out0_A_3
  rw [View.read_writes_of_cover VO0_3 _ arg5.view arg5.view.junk _ (cover0_A_3 (F := Ideal) c i arg2 harg2 arg3 harg3 arg4 harg4 arg5 harg5 arg6 harg6 hc0 x0 x1),
    (first_pieces c i arg2 harg2 arg3 harg3 arg4 harg4 arg5 harg5 arg6 harg6 x0 x1 hc0).2, View.writes_append, tile_loaded, (after_loop c i arg2 harg2 arg3 harg3 arg4 harg4 arg5 harg5 arg6 harg6 x0 x1 _).2 mm,
    read_writes_whole _ _ zeros3, col_init, min_top_left]

/-! ## A batch's later tiles -/

variable (xo3 : Vec Ideal S1x1x4096 .f32)

/-- The piece lists the run finds at a later tile, the column buffer holding `xo3` on entry. -/
theorem later_pieces (hc0 : ¬cond0_0 i) :
    (kernelRun0_B (F := Ideal) c i arg2 harg2 arg3 harg3 arg4 harg4 arg5 harg5 arg6 harg6 hc0 x0 x1 xo3).1
        = ([⟨Rect.unit ![0, 0, 0] S1x1024x1.size inb_S1x1024x1_S1x1024x1_0_0_0,
            k0_pay9 (View.ld (Val := Elt Ideal) (e' := .f32) (arg6.view.read (Elt Ideal) (arg6.view.writes (Elt Ideal) arg6.view.junk ((pb_k0_t1 (F := Ideal) Variants.none c none i arg2 harg2 arg3 harg3 arg4 harg4 arg5 harg5 arg6 harg6 (View.ld (Val := Elt Ideal) (e' := .f32) (arg2.view.read (Elt Ideal) (harg2.unread x0)) (Rect.unit ![0, 0, 0] S1x1024x3.size inb_S1x1024x3_S1x1024x3_0_0_0)) (harg3.unread x1) (harg5.unread xo3) (arg6.view.writes (Elt Ideal) arg6.view.junk [scratchInit]) k0_t1_loop.trips).2 ++ [scratchInit])))
              (Rect.unit ![0, 0] S1024x1.size inb_S1024x1_S1024x1_0_0))⟩] : List (View.Piece (Elt Ideal) S1x1024x1 .f32))
    ∧ (kernelRun0_B (F := Ideal) c i arg2 harg2 arg3 harg3 arg4 harg4 arg5 harg5 arg6 harg6 hc0 x0 x1 xo3).2.1 = (pb_k0_t1 (F := Ideal) Variants.none c none i arg2 harg2 arg3 harg3 arg4 harg4 arg5 harg5 arg6 harg6 (View.ld (Val := Elt Ideal) (e' := .f32) (arg2.view.read (Elt Ideal) (harg2.unread x0)) (Rect.unit ![0, 0, 0] S1x1024x3.size inb_S1x1024x3_S1x1024x3_0_0_0)) (harg3.unread x1) (harg5.unread xo3) (arg6.view.writes (Elt Ideal) arg6.view.junk [scratchInit]) k0_t1_loop.trips).1 := by
  unfold kernelRun0_B
  dsimp only
  exact ⟨rfl, rfl⟩

/-- At a later tile, the row block: row `r` is again the minimum over all points `y`. -/
theorem later_row (hc0 : ¬cond0_0 i) (u : Fin 1) (r : Fin 1024) (u' : Fin 1) :
    out0_B_2 (F := Ideal) c i arg2 harg2 arg3 harg3 arg4 harg4 arg5 harg5 arg6 harg6 hc0 x0 x1 xo3 (ix3 u r u')
      = (Finset.univ : Finset (Fin 4096)).inf fun mm => tileDist x0 x1 r mm := by
  unfold out0_B_2
  rw [(later_pieces c i arg2 harg2 arg3 harg3 arg4 harg4 arg5 harg5 arg6 harg6 x0 x1 xo3 hc0).1, read_writes_whole _ _ zeros3, rowout_entry, View.ld_unit_zero zeros2, tile_loaded]
  exact (after_loop c i arg2 harg2 arg3 harg3 arg4 harg4 arg5 harg5 arg6 harg6 x0 x1 _).1 r u'

/-- At a later tile, the column block: lane `m` is what the tile before left against the minimum over this tile's rows. -/
theorem later_col (hc0 : ¬cond0_0 i) (mm : Fin 4096) :
    out0_B_3 (F := Ideal) c i arg2 harg2 arg3 harg3 arg4 harg4 arg5 harg5 arg6 harg6 hc0 x0 x1 xo3 (ix3 (0 : Fin 1) (0 : Fin 1) mm)
      = min (xo3 (ix3 (0 : Fin 1) (0 : Fin 1) mm)) ((Finset.univ : Finset (Fin 1024)).inf fun r => tileDist x0 x1 r mm) := by
  unfold out0_B_3
  rw [View.read_writes_of_cover VO0_3 _ arg5.view (harg5.unread xo3) _ (cover0_B_3 (F := Ideal) c i arg2 harg2 arg3 harg3 arg4 harg4 arg5 harg5 arg6 harg6 hc0 x0 x1 xo3),
    (later_pieces c i arg2 harg2 arg3 harg3 arg4 harg4 arg5 harg5 arg6 harg6 x0 x1 xo3 hc0).2, tile_loaded, (after_loop c i arg2 harg2 arg3 harg3 arg4 harg4 arg5 harg5 arg6 harg6 x0 x1 _).2 mm, harg5.read_unread]

end Cases

end Cert.KernelIdeal.Body

end
-- ==== Proof.Arrays.lean ====
/-
  From grid points to whole arrays.

  The grid has 8 × 4 points: point `t` works on batch `b = t / 4` and on tile `q = t % 4` of that batch's 4096 points `x`
  (rows `1024·q … 1024·q + 1023`), against the batch's whole transposed block of `y`.  With `dist b n m` the squared
  distance between point `n` of `x` and point `m` of `y` in batch `b`:
  the first output's block at point `t` holds, at row `r`, the minimum over `m` of `dist b (1024·q + r) m`; the second
  output's block, carried along the four tiles of a batch, holds at lane `m` the minimum of `dist b n m` over the rows
  `n < 1024·(q + 1)` seen so far.  The first is written back at every point, the second after a batch's last tile; the
  blocks written back cover both arrays, which therefore end as the row minima and the column minima of `dist`.
-/
import proofs.«101057_j25074019074108_2_alg».proof.Proof.Gen.KernelIdeal.Frame
import proofs.«101057_j25074019074108_2_alg».proof.Proof.Point
import Idealize.ShloMosaic.Lib.Pipeline.Value

set_option maxRecDepth 16384

noncomputable section

open scoped BigOperators

namespace Cert.KernelIdeal.Arrays

open Idealize.ShloMosaic Idealize.ShloMosaic.ValueIdx Idealize.ShloMosaic.TcCoe Idealize.SL.Sem
open Idealize.ShloMosaic.Pipeline (Dat)
open Cert.KernelIdeal Cert.KernelIdeal.Gen Cert.KernelIdeal.Body

/-- The squared distance between point `n` of `x` and point `mm` of `y` in batch `b`, `y` given transposed. -/
def dist (X : Vec Ideal S8x4096x3 .f32) (YT : Vec Ideal S8x3x4096 .f32) (b : Fin 8) (n mm : Fin 4096) : EReal :=
  Chamfer.dKer (fun d => X (ix3 b n d)) (fun d => YT (ix3 b d mm))

/-- The first output array's value: one minimum over `y` per point of `x`. -/
def rowMins (X : Vec Ideal S8x4096x3 .f32) (YT : Vec Ideal S8x3x4096 .f32) : Vec Ideal S8x4096x1 .f32 :=
  fun i => (Finset.univ : Finset (Fin 4096)).inf fun mm => dist X YT ⟨(i 0).val, (i 0).isLt⟩ ⟨(i 1).val, (i 1).isLt⟩ mm

/-- The second output array's value: one minimum over `x` per point of `y`. -/
def colMins (X : Vec Ideal S8x4096x3 .f32) (YT : Vec Ideal S8x3x4096 .f32) : Vec Ideal S8x1x4096 .f32 :=
  fun i => (Finset.univ : Finset (Fin 4096)).inf fun n => dist X YT ⟨(i 0).val, (i 0).isLt⟩ n ⟨(i 2).val, (i 2).isLt⟩

variable (m : (ℓ : Loc nD τ sig) → Buf (Elt Ideal) ℓ)

/-- The grid has 32 points. -/
theorem N32 : cfg0.N = 32 := N_0

/-- The printed index maps over the grid: point `t` is batch `t / 4`, tile `t % 4`. -/
theorem idx_facts : ∀ t : Fin cfg0.N,
    win0_0.index t (0 : Fin 3) = t.val / 4 ∧ win0_0.index t (1 : Fin 3) = t.val % 4 ∧ win0_0.index t (2 : Fin 3) = 0
    ∧ win0_1.index t (0 : Fin 3) = t.val / 4 ∧ win0_1.index t (1 : Fin 3) = 0 ∧ win0_1.index t (2 : Fin 3) = 0
    ∧ win0_2.index t (0 : Fin 3) = t.val / 4 ∧ win0_2.index t (1 : Fin 3) = t.val % 4 ∧ win0_2.index t (2 : Fin 3) = 0
    ∧ win0_3.index t (0 : Fin 3) = t.val / 4 ∧ win0_3.index t (1 : Fin 3) = 0 ∧ win0_3.index t (2 : Fin 3) = 0 :=
  (by decide +kernel : ∀ t : Fin grid0.N, _)

/-! ## The input blocks at array coordinates -/

/-- Row `r` of the tile of `x` at point `t = 4·b + q` is point `1024·q + r` of batch `b`. -/
theorem xblock_apply (c : Dev nD) (t : Fin cfg0.N) (b : Fin 8) (q : Fin 4) (ht : t.val = 4 * b.val + q.val)
    (r : Fin 1024) (d : Fin 3) (hlt : 1024 * q.val + r.val < 4096) :
    (iblk m c 0 t : Vec Ideal S1x1024x3 .f32) (ix3 (0 : Fin 1) r d)
      = (V m c main_arg0 : Vec Ideal S8x4096x3 .f32) (ix3 b ⟨1024 * q.val + r.val, hlt⟩ d) := by
  obtain ⟨e0, e1, e2, -⟩ := idx_facts t
  have hq := q.isLt
  unfold iblk
  rw [View.read_apply]
  show V m c main_arg0 _ = V m c main_arg0 _
  congr 1
  funext a
  apply Fin.ext
  match a with
  | ⟨0, _⟩ => show win0_0.index t (0 : Fin 3) * 1 + 1 * 0 = b.val; rw [e0]; omega
  | ⟨1, _⟩ => show win0_0.index t (1 : Fin 3) * 1024 + 1 * r.val = 1024 * q.val + r.val; rw [e1]; omega
  | ⟨2, _⟩ => show win0_0.index t (2 : Fin 3) * 3 + 1 * d.val = d.val; rw [e2]; omega

/-- The block of transposed `y` at point `t = 4·b + q` is batch `b`'s. -/
theorem yblock_apply (c : Dev nD) (t : Fin cfg0.N) (b : Fin 8) (q : Fin 4) (ht : t.val = 4 * b.val + q.val)
    (d : Fin 3) (mm : Fin 4096) :
    (iblk m c 1 t : Vec Ideal S1x3x4096 .f32) (ix3 (0 : Fin 1) d mm)
      = (V m c main_v0 : Vec Ideal S8x3x4096 .f32) (ix3 b d mm) := by
  obtain ⟨-, -, -, e0, e1, e2, -⟩ := idx_facts t
  have hq := q.isLt
  unfold iblk
  rw [View.read_apply]
  show V m c main_v0 _ = V m c main_v0 _
  congr 1
  funext a
  apply Fin.ext
  match a with
  | ⟨0, _⟩ => show win0_1.index t (0 : Fin 3) * 1 + 1 * 0 = b.val; rw [e0]; omega
  | ⟨1, _⟩ => show win0_1.index t (1 : Fin 3) * 3 + 1 * d.val = d.val; rw [e1]; omega
  | ⟨2, _⟩ => show win0_1.index t (2 : Fin 3) * 4096 + 1 * mm.val = mm.val; rw [e2]; omega

/-- So the distances the body forms at point `t = 4·b + q` are the batch's. -/
theorem tileDist_blocks (c : Dev nD) (t : Fin cfg0.N) (b : Fin 8) (q : Fin 4) (ht : t.val = 4 * b.val + q.val)
    (r : Fin 1024) (mm : Fin 4096) (hlt : 1024 * q.val + r.val < 4096) :
    tileDist (iblk m c 0 t) (iblk m c 1 t) r mm
      = dist (V m c main_arg0) (V m c main_v0) b ⟨1024 * q.val + r.val, hlt⟩ mm := by
  unfold tileDist dist
  have h1 : (fun d : Fin 3 => (iblk m c 0 t : Vec Ideal S1x1024x3 .f32) (ix3 (0 : Fin 1) r d))
      = fun d => (V m c main_arg0 : Vec Ideal S8x4096x3 .f32) (ix3 b ⟨1024 * q.val + r.val, hlt⟩ d) :=
    funext fun d => xblock_apply m c t b q ht r d hlt
  have h2 : (fun d : Fin 3 => (iblk m c 1 t : Vec Ideal S1x3x4096 .f32) (ix3 (0 : Fin 1) d mm))
      = fun d => (V m c main_v0 : Vec Ideal S8x3x4096 .f32) (ix3 b d mm) :=
    funext fun d => yblock_apply m c t b q ht d mm
  rw [h1, h2]

/-! ## What the output blocks hold after each point -/

/-- After point `n = 4·b + q`: the first block's row `r` is the minimum over `y` for point `1024·q + r` of `x`; the second
    block's lane `mm` is the minimum of the distances to point `mm` of `y` over the rows of the tiles seen so far in the
    batch. By induction on the point: a batch's first tile starts afresh, a later one continues the tile before. -/
theorem outsAt_eq (c : Dev nD) : ∀ (n : ℕ) (h : n < cfg0.N) (b : Fin 8) (q : Fin 4), n = 4 * b.val + q.val →
    (∀ (u : Fin 1) (r : Fin 1024) (u' : Fin 1) (hlt : 1024 * q.val + r.val < 4096),
      (outsAt0 m c n h).1 (ix3 u r u')
        = (Finset.univ : Finset (Fin 4096)).inf fun mm => dist (V m c main_arg0) (V m c main_v0) b ⟨1024 * q.val + r.val, hlt⟩ mm) ∧
    (∀ mm : Fin 4096,
      (outsAt0 m c n h).2 (ix3 (0 : Fin 1) (0 : Fin 1) mm)
        = (Finset.univ.filter fun nn : Fin 4096 => nn.val < 1024 * (q.val + 1)).inf
            fun nn => dist (V m c main_arg0) (V m c main_v0) b nn mm) := by
  intro n
  induction n using Nat.strong_induction_on with
  | _ n ih =>
    intro h b q hn
    have hq := q.isLt
    have hchunk : ∀ mm : Fin 4096,
        min ((Finset.univ.filter fun nn : Fin 4096 => nn.val < 1024 * q.val).inf fun nn => dist (V m c main_arg0) (V m c main_v0) b nn mm)
            ((Finset.univ : Finset (Fin 1024)).inf fun r => tileDist (iblk m c 0 ⟨n, h⟩) (iblk m c 1 ⟨n, h⟩) r mm)
          = (Finset.univ.filter fun nn : Fin 4096 => nn.val < 1024 * (q.val + 1)).inf fun nn => dist (V m c main_arg0) (V m c main_v0) b nn mm := by
      intro mm
      rw [← Chamfer.inf_chunk_succ (N := 4096) (w := 1024) (fun nn => dist (V m c main_arg0) (V m c main_v0) b nn mm) q.val (by omega)]
      refine congrArg (min (_ : EReal)) (congrArg (Finset.inf Finset.univ) (funext fun r => ?_))
      exact tileDist_blocks m c ⟨n, h⟩ b q hn r mm (by have := r.isLt; omega)
    have hrow : ∀ (r : Fin 1024) (hlt : 1024 * q.val + r.val < 4096),
        ((Finset.univ : Finset (Fin 4096)).inf fun mm => tileDist (iblk m c 0 ⟨n, h⟩) (iblk m c 1 ⟨n, h⟩) r mm)
          = (Finset.univ : Finset (Fin 4096)).inf fun mm => dist (V m c main_arg0) (V m c main_v0) b ⟨1024 * q.val + r.val, hlt⟩ mm :=
      fun r hlt => congrArg (Finset.inf Finset.univ) (funext fun mm => tileDist_blocks m c ⟨n, h⟩ b q hn r mm hlt)
    by_cases hq0 : q.val = 0
    · -- a batch's first tile
      have hA : (⟨n, h⟩ : Fin cfg0.N).val % 4 = 0 := by show n % 4 = 0; omega
      rw [outsAt0_A m c ⟨n, h⟩ hA]
      refine ⟨fun u r u' hlt => ?_, fun mm => ?_⟩
      · dsimp only
        rw [first_row, hrow r hlt]
      · dsimp only
        rw [first_col, ← hchunk mm,
          show ((Finset.univ.filter fun nn : Fin 4096 => nn.val < 1024 * q.val).inf fun nn => dist (V m c main_arg0) (V m c main_v0) b nn mm) = ⊤ from by
            rw [hq0]; exact Chamfer.inf_chunk_zero _,
          min_top_left]
    · -- a later tile: the column block continues the tile before
      have hB : ¬(⟨n, h⟩ : Fin cfg0.N).val % 4 = 0 := by show ¬n % 4 = 0; omega
      have hprev := (ih (n - 1) (by omega) (by omega) b ⟨q.val - 1, by omega⟩ (by show n - 1 = 4 * b.val + (q.val - 1); omega)).2
      rw [outsAt0_B m c ⟨n, h⟩ hB]
      refine ⟨fun u r u' hlt => ?_, fun mm => ?_⟩
      · dsimp only
        rw [later_row, hrow r hlt]
      · dsimp only
        rw [later_col, ← hchunk mm]
        refine congrArg (fun z : EReal => min z _) ?_
        have hp := hprev mm
        rw [show (q.val - 1 + 1) = q.val from by omega] at hp
        exact hp

/-! ## The first output array -/

/-- What point `t` writes back of the first output is block `t` of the row minima. -/
theorem flushed_rows (c : Dev nD) (t : Fin cfg0.N) :
    (dats m 0 c).flushed 2 t = ((cfg0.win 2).blk t).view.read (Elt Ideal) (rowMins (V m c main_arg0) (V m c main_v0)) := by
  have hN := N32
  have ht := t.isLt
  obtain ⟨-, -, -, -, -, -, e0, e1, e2, -⟩ := idx_facts t
  show (cfg0.win 2).cut (grid0.coords t) ((dats m 0 c).after 2 t) = _
  rw [after0_2]
  funext j
  obtain ⟨u, r, u', rfl⟩ : ∃ (u : Fin 1) (r : Fin 1024) (u' : Fin 1), j = ix3 u r u' := ⟨j 0, j 1, j 2, eq_ix3 j⟩
  have hr := r.isLt
  have hlt : 1024 * (t.val % 4) + r.val < 4096 := by omega
  show (outsAt0 m c t.val t.isLt).1 (ix3 u r u') = rowMins (V m c main_arg0) (V m c main_v0) (((cfg0.win 2).blk t).view.emb (ix3 u r u'))
  rw [(outsAt_eq m c t.val t.isLt ⟨t.val / 4, by omega⟩ ⟨t.val % 4, by omega⟩ (by show t.val = 4 * (t.val / 4) + t.val % 4; omega)).1 u r u' hlt]
  unfold rowMins
  refine congrArg (Finset.inf Finset.univ) (funext fun mm => ?_)
  have hu : u.val = 0 := by omega
  have c0 : ((((cfg0.win 2).blk t).view.emb (ix3 u r u')) 0).val = t.val / 4 := by
    show win0_2.index t (0 : Fin 3) * 1 + 1 * u.val = t.val / 4; rw [e0]; omega
  have c1 : ((((cfg0.win 2).blk t).view.emb (ix3 u r u')) 1).val = 1024 * (t.val % 4) + r.val := by
    show win0_2.index t (1 : Fin 3) * 1024 + 1 * r.val = 1024 * (t.val % 4) + r.val; rw [e1]; omega
  exact congrArg₂ (fun (bb : Fin 8) (nn : Fin 4096) => dist (V m c main_arg0) (V m c main_v0) bb nn mm) (Fin.ext c0.symm) (Fin.ext c1.symm)

/-- An index of the first output array is in point `t`'s block iff each coordinate is in the block's range. -/
theorem mem_rows (t : Fin cfg0.N) (i : S8x4096x1.Idx) :
    i ∈ ((cfg0.win 2).blk t).view.set ↔ ∀ a : Fin 3, win0_2.index t a * S1x1024x1.size a ≤ (i a).val ∧ (i a).val < win0_2.index t a * S1x1024x1.size a + S1x1024x1.size a := by
  show i ∈ ((View.whole main_v1_0).slice (win0_2.rect t)).set ↔ _
  rw [View.set_slice_whole, Rect.mem_set_unit]
  exact Iff.rfl

/-- The first output array ends as the row minima: every index lies in the block of the point of its batch and tile. -/
theorem final_rows (c : Dev nD) : (dats m 0 c).arrAt 2 cfg0.N = rowMins (V m c main_arg0) (V m c main_v0) :=
  (dats m 0 c).arrAt_eq_of_cover 2 _ (fun t _ => flushed_rows m c t) fun i => by
    have hN := N32
    have h0 : (i 0).val < 8 := (i 0).isLt
    have h1 : (i 1).val < 4096 := (i 1).isLt
    have h2 : (i 2).val < 1 := (i 2).isLt
    let t : Fin cfg0.N := ⟨4 * (i 0).val + (i 1).val / 1024, by omega⟩
    obtain ⟨-, -, -, -, -, -, e0, e1, e2, -⟩ := idx_facts t
    have tv : t.val = 4 * (i 0).val + (i 1).val / 1024 := rfl
    refine ⟨t, flush0_2 t, ?_⟩
    rw [mem_rows]
    intro a
    match a with
    | ⟨0, _⟩ => show win0_2.index t (0 : Fin 3) * 1 ≤ (i 0).val ∧ (i 0).val < win0_2.index t (0 : Fin 3) * 1 + 1; rw [e0, tv]; omega
    | ⟨1, _⟩ => show win0_2.index t (1 : Fin 3) * 1024 ≤ (i 1).val ∧ (i 1).val < win0_2.index t (1 : Fin 3) * 1024 + 1024; rw [e1, tv]; omega
    | ⟨2, _⟩ => show win0_2.index t (2 : Fin 3) * 1 ≤ (i 2).val ∧ (i 2).val < win0_2.index t (2 : Fin 3) * 1 + 1; rw [e2]; omega

/-! ## The second output array -/

/-- What a batch's last point writes back of the second output is that batch's block of the column minima. -/
theorem flushed_cols (c : Dev nD) (t : Fin cfg0.N) (hf : (cfg0.win 3).flush t = true) :
    (dats m 0 c).flushed 3 t = ((cfg0.win 3).blk t).view.read (Elt Ideal) (colMins (V m c main_arg0) (V m c main_v0)) := by
  have hN := N32
  have ht := t.isLt
  have h3 : t.val % 4 = 3 := (flush0_3 t).mp hf
  obtain ⟨-, -, -, -, -, -, -, -, -, e0, e1, e2⟩ := idx_facts t
  show (cfg0.win 3).cut (grid0.coords t) ((dats m 0 c).after 3 t) = _
  rw [after0_3]
  funext j
  obtain ⟨u, u', mm, rfl⟩ : ∃ (u : Fin 1) (u' : Fin 1) (mm : Fin 4096), j = ix3 u u' mm := ⟨j 0, j 1, j 2, eq_ix3 j⟩
  have hu : u = 0 := Subsingleton.elim _ _
  have hu' : u' = 0 := Subsingleton.elim _ _
  subst hu hu'
  show (outsAt0 m c t.val t.isLt).2 (ix3 (0 : Fin 1) (0 : Fin 1) mm) = colMins (V m c main_arg0) (V m c main_v0) (((cfg0.win 3).blk t).view.emb (ix3 (0 : Fin 1) (0 : Fin 1) mm))
  rw [(outsAt_eq m c t.val t.isLt ⟨t.val / 4, by omega⟩ ⟨t.val % 4, by omega⟩ (by show t.val = 4 * (t.val / 4) + t.val % 4; omega)).2 mm]
  unfold colMins
  rw [Chamfer.inf_chunk_all _ (by show 4096 ≤ 1024 * (t.val % 4 + 1); omega)]
  refine congrArg (Finset.inf Finset.univ) (funext fun n => ?_)
  have hm := mm.isLt
  have c0 : ((((cfg0.win 3).blk t).view.emb (ix3 (0 : Fin 1) (0 : Fin 1) mm)) 0).val = t.val / 4 := by
    show win0_3.index t (0 : Fin 3) * 1 + 1 * 0 = t.val / 4; rw [e0]; omega
  have c2 : ((((cfg0.win 3).blk t).view.emb (ix3 (0 : Fin 1) (0 : Fin 1) mm)) 2).val = mm.val := by
    show win0_3.index t (2 : Fin 3) * 4096 + 1 * mm.val = mm.val; rw [e2]; omega
  exact congrArg₂ (fun (bb : Fin 8) (m' : Fin 4096) => dist (V m c main_arg0) (V m c main_v0) bb n m') (Fin.ext c0.symm) (Fin.ext c2.symm)

/-- An index of the second output array is in point `t`'s block iff each coordinate is in the block's range. -/
theorem mem_cols (t : Fin cfg0.N) (i : S8x1x4096.Idx) :
    i ∈ ((cfg0.win 3).blk t).view.set ↔ ∀ a : Fin 3, win0_3.index t a * S1x1x4096.size a ≤ (i a).val ∧ (i a).val < win0_3.index t a * S1x1x4096.size a + S1x1x4096.size a := by
  show i ∈ ((View.whole main_v1_1).slice (win0_3.rect t)).set ↔ _
  rw [View.set_slice_whole, Rect.mem_set_unit]
  exact Iff.rfl

/-- The second output array ends as the column minima: every index lies in the block its batch's last point writes. -/
theorem final_cols (c : Dev nD) : (dats m 0 c).arrAt 3 cfg0.N = colMins (V m c main_arg0) (V m c main_v0) :=
  (dats m 0 c).arrAt_eq_of_cover 3 _ (flushed_cols m c) fun i => by
    have hN := N32
    have h0 : (i 0).val < 8 := (i 0).isLt
    have h1 : (i 1).val < 1 := (i 1).isLt
    have h2 : (i 2).val < 4096 := (i 2).isLt
    let t : Fin cfg0.N := ⟨4 * (i 0).val + 3, by omega⟩
    obtain ⟨-, -, -, -, -, -, -, -, -, e0, e1, e2⟩ := idx_facts t
    have tv : t.val = 4 * (i 0).val + 3 := rfl
    refine ⟨t, (flush0_3 t).mpr (by rw [tv]; omega), ?_⟩
    rw [mem_cols]
    intro a
    match a with
    | ⟨0, _⟩ => show win0_3.index t (0 : Fin 3) * 1 ≤ (i 0).val ∧ (i 0).val < win0_3.index t (0 : Fin 3) * 1 + 1; rw [e0, tv]; omega
    | ⟨1, _⟩ => show win0_3.index t (1 : Fin 3) * 1 ≤ (i 1).val ∧ (i 1).val < win0_3.index t (1 : Fin 3) * 1 + 1; rw [e1]; omega
    | ⟨2, _⟩ => show win0_3.index t (2 : Fin 3) * 4096 ≤ (i 2).val ∧ (i 2).val < win0_3.index t (2 : Fin 3) * 4096 + 4096; rw [e2]; omega

end Cert.KernelIdeal.Arrays

end
-- ==== Proof.RefValue.lean ====
/-
  The reference's distance array and its two nearest-neighbour minima, read entry by entry.
  Entry (b, n, m) of the distance array is max (|x_bn|² + |y_bm|² − 2·(x_bn · y_bm)) 0, the squared distance
  between point n of the first cloud and point m of the second in batch b, clamped at zero.
-/
import proofs.«101057_j25074019074108_2_alg».proof.Proof.Gen.ReferenceIdeal.Read
import proofs.«101057_j25074019074108_2_alg».proof.Proof.Dist

noncomputable section

open scoped BigOperators

namespace Cert.ReferenceIdeal.RefValue

open Idealize.ShloMosaic Idealize.ShloMosaic.ValueIdx Cert.ReferenceIdeal Cert.ReferenceIdeal.Gen Cert.ReferenceIdeal.Read

/-! ## The indices the stages read at -/

/-- Row n of the first cloud, coordinate k: where the squares' sum over the first cloud reads. -/
private theorem idx_sq_x (b : Fin 8) (n mm : Fin 4096) (k : Fin 3) :
    idx_main_v1 (idx_main_v5 (idx_main_v7 (ix3 b n mm))) k = ix3 b n k :=
  funext fun a => Fin.ext (by match a with | ⟨0, _⟩ => rfl | ⟨1, _⟩ => rfl | ⟨2, _⟩ => rfl)

/-- Row m of the second cloud, coordinate k: where the squares' sum over the second cloud reads. -/
private theorem idx_sq_y (b : Fin 8) (n mm : Fin 4096) (k : Fin 3) :
    idx_main_v3 (idx_main_v6 (idx_main_v8 (ix3 b n mm))) k = ix3 b mm k :=
  funext fun a => Fin.ext (by match a with | ⟨0, _⟩ => rfl | ⟨1, _⟩ => rfl | ⟨2, _⟩ => rfl)

/-- The inner product's left factor: row n of the first cloud. -/
private theorem idx_dot_x (b : Fin 8) (n mm : Fin 4096) (k : Fin 3) :
    lidx_main_v4 (ix3 b n mm) k = ix3 b n k :=
  funext fun a => Fin.ext (by match a with | ⟨0, _⟩ => rfl | ⟨1, _⟩ => rfl | ⟨2, _⟩ => rfl)

/-- The inner product's right factor: row m of the second cloud. -/
private theorem idx_dot_y (b : Fin 8) (n mm : Fin 4096) (k : Fin 3) :
    ridx_main_v4 (ix3 b n mm) k = ix3 b mm k :=
  funext fun a => Fin.ext (by match a with | ⟨0, _⟩ => rfl | ⟨1, _⟩ => rfl | ⟨2, _⟩ => rfl)

/-! ## The distance array -/

/-- Entry (b, n, m) of the distance array: the sum of the two points' squared norms, less twice their inner
    product, clamped below at zero. The two sums start from zero, which adds nothing. -/
theorem v14_apply (X Y : (⟨S8x4096x3, .f32⟩ : BufTy).Contents (Elt Ideal)) (b : Fin 8) (n mm : Fin 4096) :
    val_main_v14 (F := Ideal) X Y (ix3 b n mm)
      = Chamfer.dRef (fun d => X (ix3 b n d)) (fun d => Y (ix3 b mm d)) := by
  simp only [val_main_v14_apply, val_main_v13_apply, val_main_cst_2_apply, val_main_v12_apply, val_main_v11_apply,
    val_main_v10_apply, val_main_cst_1_apply, val_main_v9_apply, val_main_v8_apply, val_main_v7_apply,
    val_main_v6_apply, val_main_v5_apply, val_main_v4_apply, val_main_v3_apply, val_main_v1_apply,
    val_main_v2_apply, val_main_v0_apply, val_main_cst_apply, val_main_cst_0_apply,
    idx_sq_x, idx_sq_y, idx_dot_x, idx_dot_y,
    Ideal.mulf_def, Ideal.addf_def, Ideal.subf_def, Ideal.maximumf_def, Ideal.ofBits_def,
    Ideal.ofBits_zero_f32, Chamfer.ofBits_two, zero_add]
  rfl

/-! ## The nearest-neighbour minima -/

/-- The pair (b, n) with m inserted on the last axis is the triple (b, n, m). -/
private theorem lift_last (h : S8x4096x4096.Reduces [2] S8x4096) (b : Fin 8) (n : Fin 4096)
    (k : Fin (S8x4096x4096.size 2)) :
    h.lift (ix2 b n) k = ix3 b n (⟨k.val, k.isLt⟩ : Fin 4096) := by
  funext c; apply Fin.ext
  match c with | ⟨0, _⟩ => rfl | ⟨1, _⟩ => rfl | ⟨2, _⟩ => rfl

/-- The pair (b, m) with n inserted on the middle axis is the triple (b, n, m). -/
private theorem lift_mid (h : S8x4096x4096.Reduces [1] S8x4096) (b : Fin 8) (mm : Fin 4096)
    (k : Fin (S8x4096x4096.size 1)) :
    h.lift (ix2 b mm) k = ix3 b (⟨k.val, k.isLt⟩ : Fin 4096) mm := by
  funext c; apply Fin.ext
  match c with | ⟨0, _⟩ => rfl | ⟨1, _⟩ => rfl | ⟨2, _⟩ => rfl

/-- For point n of the first cloud, the minimum over the second cloud's points m of the clamped squared distance:
    a minimum taken from +∞ over the whole range is the greatest lower bound of the entries. -/
theorem v15_apply (X Y : (⟨S8x4096x3, .f32⟩ : BufTy).Contents (Elt Ideal)) (b : Fin 8) (n : Fin 4096) :
    val_main_v15 (F := Ideal) X Y (ix2 b n)
      = (Finset.univ : Finset (Fin 4096)).inf fun mm => Chamfer.dRef (fun d => X (ix3 b n d)) (fun d => Y (ix3 b mm d)) := by
  have h : S8x4096x4096.Reduces [2] S8x4096 := by decide
  have hD : ∀ mm : Fin 4096, val_main_v14 (F := Ideal) X Y (ix3 b n mm)
      = Chamfer.dRef (fun d => X (ix3 b n d)) (fun d => Y (ix3 b mm d)) := fun mm => v14_apply X Y b n mm
  unfold val_main_v15
  generalize val_main_v14 (F := Ideal) X Y = D at hD ⊢
  refine (Host.reduce_eq_fold_single (FloatOps.minimumf (F := Ideal) (φ := .f32)) D _
    reducesTo_S8x4096x4096_S8x4096_d2 h h_S_ (ix2 b n)).trans ?_
  rw [val_main_cst_3_apply, Ideal.ofBits_def, Chamfer.ofBits_inf]
  have hf : (D ∘ h.lift (ix2 b n))
      = fun mm : Fin 4096 => Chamfer.dRef (fun d => X (ix3 b n d)) (fun d => Y (ix3 b mm d)) :=
    funext fun k => (congrArg D (lift_last h b n k)).trans (hD _)
  rw [hf]
  exact Chamfer.fold_min_top _ _

/-- For point m of the second cloud, the minimum over the first cloud's points n of the clamped squared distance. -/
theorem v16_apply (X Y : (⟨S8x4096x3, .f32⟩ : BufTy).Contents (Elt Ideal)) (b : Fin 8) (mm : Fin 4096) :
    val_main_v16 (F := Ideal) X Y (ix2 b mm)
      = (Finset.univ : Finset (Fin 4096)).inf fun n => Chamfer.dRef (fun d => X (ix3 b n d)) (fun d => Y (ix3 b mm d)) := by
  have h : S8x4096x4096.Reduces [1] S8x4096 := by decide
  have hD : ∀ n : Fin 4096, val_main_v14 (F := Ideal) X Y (ix3 b n mm)
      = Chamfer.dRef (fun d => X (ix3 b n d)) (fun d => Y (ix3 b mm d)) := fun n => v14_apply X Y b n mm
  unfold val_main_v16
  generalize val_main_v14 (F := Ideal) X Y = D at hD ⊢
  refine (Host.reduce_eq_fold_single (FloatOps.minimumf (F := Ideal) (φ := .f32)) D _
    reducesTo_S8x4096x4096_S8x4096_d1 h h_S_ (ix2 b mm)).trans ?_
  rw [val_main_cst_4_apply, Ideal.ofBits_def, Chamfer.ofBits_inf]
  have hf : (D ∘ h.lift (ix2 b mm))
      = fun n : Fin 4096 => Chamfer.dRef (fun d => X (ix3 b n d)) (fun d => Y (ix3 b mm d)) :=
    funext fun k => (congrArg D (lift_mid h b mm k)).trans (hD _)
  rw [hf]
  exact Chamfer.fold_min_top _ _

end Cert.ReferenceIdeal.RefValue

end
-- ==== Proof.Tail.lean ====
/-
  The closing arithmetic both programs share. From the two arrays of nearest-neighbour minima, dx (one entry per
  point of the first cloud) and dy (one per point of the second), and the weights w (one per batch):
  the mean of dx over the 4096 points of each batch, plus the mean of dy over the 4096 points of each batch,
  times the batch's weight, then the mean of these 8 numbers. Each mean is a sum from zero divided by the count.
-/
import proofs.«101057_j25074019074108_2_alg».proof.Proof.Gen.ReferenceIdeal.Read

noncomputable section

namespace Cert.Proof.Tail

open Idealize.ShloMosaic Cert.ReferenceIdeal Cert.ReferenceIdeal.Gen Cert.ReferenceIdeal.Read

/-- (1/8) · Σ_b w_b · ((1/4096) · Σ_n dx[b, n] + (1/4096) · Σ_m dy[b, m]), written with the host's operations:
    each sum starts from 0.0, the divisors 4096.0 and 8.0 are constants, 4096.0 spread over the 8 batches. -/
def tail (dx dy : (⟨Cert.ReferenceIdeal.S8x4096, .f32⟩ : BufTy).Contents (Elt Ideal))
    (w : (⟨Cert.ReferenceIdeal.S8, .f32⟩ : BufTy).Contents (Elt Ideal)) :
    (⟨Cert.ReferenceIdeal.S_, .f32⟩ : BufTy).Contents (Elt Ideal) :=
  Host.divf (F := Ideal)
    (Host.reduceAdd (F := Ideal)
      (mulf (F := Ideal)
        (addf (F := Ideal)
          (Host.divf (F := Ideal)
            (Host.reduceAdd (F := Ideal) dx (constant (F := Ideal) S_ .f32 0x00000000#32) reducesTo_S8x4096_S8_d1 h_S_)
            (broadcastInDim S8 ![] bcast_S_S8 (constant (F := Ideal) S_ .f32 0x45800000#32)))
          (Host.divf (F := Ideal)
            (Host.reduceAdd (F := Ideal) dy (constant (F := Ideal) S_ .f32 0x00000000#32) reducesTo_S8x4096_S8_d1 h_S_)
            (broadcastInDim S8 ![] bcast_S_S8 (constant (F := Ideal) S_ .f32 0x45800000#32))))
        w)
      (constant (F := Ideal) S_ .f32 0x00000000#32) reducesTo_S8_S_d0 h_S_)
    (constant (F := Ideal) S_ .f32 0x41000000#32)

/-- The reference's result is the closing arithmetic applied to its two arrays of minima and the weights. -/
theorem ref_tail (X Y : (⟨S8x4096x3, .f32⟩ : BufTy).Contents (Elt Ideal)) (W : (⟨S8, .f32⟩ : BufTy).Contents (Elt Ideal)) :
    val_main_v26 (F := Ideal) X Y W
      = tail (val_main_v15 (F := Ideal) X Y) (val_main_v16 (F := Ideal) X Y) W := by
  unfold val_main_v26 val_main_v25 val_main_v24 val_main_v23 val_main_v19 val_main_v22 val_main_v17 val_main_v18
    val_main_v20 val_main_v21 val_main_cst_5 val_main_cst_6 val_main_cst_7 val_main_cst_8 val_main_cst_9
    val_main_cst_10 tail
  generalize val_main_v15 (F := Ideal) X Y = dx
  generalize val_main_v16 (F := Ideal) X Y = dy
  rfl

end Cert.Proof.Tail

end
-- ==== Proof.HostSide.lean ====
/-
  The host's operations around the kernel's region. Before it, the second cloud is transposed: the region's window
  on it holds, at (b, d, m), coordinate d of point m of batch b. After it, the two arrays of minima the region
  wrote are reshaped (a unit axis dropped) and fed to the closing arithmetic both programs share: the two means
  over the 4096 points, their sum times the batch's weight, and the mean over the 8 batches.
-/
import proofs.«101057_j25074019074108_2_alg».proof.Proof.Gen.KernelIdeal.Frame
import proofs.«101057_j25074019074108_2_alg».proof.Proof.Tail
import Idealize.ShloMosaic.Lib.ValueLayout

set_option maxRecDepth 16384

noncomputable section

namespace Cert.KernelIdeal.HostSide

open Idealize.ShloMosaic Idealize.ShloMosaic.ValueIdx Idealize.ShloMosaic.TcCoe Idealize.SL.Sem
open Idealize.ShloMosaic.StableHlo Cert.KernelIdeal Cert.KernelIdeal.Gen

variable (m : (ℓ : Loc nD τ sig) → Buf (Elt Ideal) ℓ) (c : Dev nD)

/-! ## Before the region: the second cloud transposed -/

/-- The array the region's second window reads is the second cloud with its last two axes swapped. -/
theorem V_v0_eq :
    (V m c main_v0 : S8x3x4096.Idx → EReal)
      = transpose S8x3x4096 [0, 2, 1] (m ((c : Thread nD τ).loc main_arg1)) transposes_S8x4096x3_S8x3x4096_0_2_1 := by
  show StableHlo.after hostOps0 (fun b => m (c, b)) (Proc.devRef .tc main_v0) = _
  after_results

/-- Its entry (b, d, m) is coordinate d of point m of batch b of the second cloud. -/
theorem V_v0_apply (b : Fin 8) (d : Fin 3) (mm : Fin 4096) :
    (V m c main_v0 : S8x3x4096.Idx → EReal) (ix3 b d mm)
      = (m ((c : Thread nD τ).loc main_arg1) : S8x4096x3.Idx → EReal) (ix3 b mm d) := by
  rw [V_v0_eq]
  exact transpose_ix3_021_apply _ _ b d mm

/-! ## After the region: the closing arithmetic on the two arrays of minima -/

/-- The program's result is the closing arithmetic applied to the region's two output arrays as the run leaves them,
    each with its unit axis dropped, and to the weights as launched: no line after the region writes an array of the
    region or the weights, the two reshapes read the region's outputs, and the sixteen lines that follow are the two
    means, their sum, the product with the weights, and the mean over the batches. -/
theorem result_eq_tail :
    Pipeline.afterTail₀ cfgs (dats m) 0 (V0 m) [hostOps1] c main_v13
      = Cert.Proof.Tail.tail
          (shapeCast S8x4096 ((dats m 0 c).arrAt 2 cfg0.N : S8x4096x1.Idx → EReal) shapeCasts_S8x4096x1_S8x4096)
          (shapeCast S8x4096 ((dats m 0 c).arrAt 3 cfg0.N : S8x1x4096.Idx → EReal) shapeCasts_S8x1x4096_S8x4096)
          (m ((c : Thread nD τ).loc main_arg2)) := by
  unfold Pipeline.afterTail₀
  generalize hW : Pipeline.withArrays _ c _ _ = Wv
  have e2 : Wv (Proc.devRef .tc main_v1_0) = (dats m 0 c).arrAt 2 cfg0.N := by
    rw [← hW]; exact Pipeline.withArrays_arr spec0 launch0.win.arr_inj c _ _ 2
  have e3 : Wv (Proc.devRef .tc main_v1_1) = (dats m 0 c).arrAt 3 cfg0.N := by
    rw [← hW]; exact Pipeline.withArrays_arr spec0 launch0.win.arr_inj c _ _ 3
  have e4 : Wv (Proc.devRef .tc main_arg2) = m ((c : Thread nD τ).loc main_arg2) := by
    rw [← hW, Pipeline.withArrays_of_ne _ c (V0 m c) _ main_arg2 (by exact (by decide : ∀ w, Pipeline.arrRef spec0 w ≠ main_arg2))]
    exact V_main_arg2 m c
  show StableHlo.after hostOps1 Wv (Proc.devRef .tc main_v13) = _
  after_results
  rw [e2, e3, e4]
  generalize (dats m 0 c).arrAt 2 cfg0.N = A2
  generalize (dats m 0 c).arrAt 3 cfg0.N = A3
  rfl

end Cert.KernelIdeal.HostSide

end
-- ==== Proof.Bridge.lean ====
/-
  The two sides meet.

  The kernel's first output array holds, per point of `x`, the minimum over `y` of the squared distance in the
  arrangement with `−2` folded into `y`; the reference's holds the same minimum of the arrangement `|x|² + |y|² − 2 x·y`.
  On real coordinates the two arrangements are one number (distributivity; at an infinite coordinate they may differ, so
  this is where the inputs' finiteness is used), hence so are the minima; likewise for the second array.  The kernel reads
  `y` transposed, and its arrays carry a unit axis that the reshape after the region drops.
-/
import proofs.«101057_j25074019074108_2_alg».proof.Proof.Arrays
import proofs.«101057_j25074019074108_2_alg».proof.Proof.RefValue
import proofs.«101057_j25074019074108_2_alg».proof.Proof.HostSide

noncomputable section

open scoped BigOperators

namespace Cert.Proof.Bridge

open Idealize.ShloMosaic Idealize.ShloMosaic.ValueIdx Idealize.ShloMosaic.TcCoe Idealize.SL.Sem
open Cert.KernelIdeal Cert.KernelIdeal.Gen

variable (m : (ℓ : Loc nD τ sig) → Buf (Elt Ideal) ℓ) (c : Dev nD)
  (hx : ∀ i : S8x4096x3.Idx, ∃ r : ℝ, (m ((c : Thread nD τ).loc main_arg0) : Vec Ideal S8x4096x3 .f32) i = (r : EReal))
  (hy : ∀ i : S8x4096x3.Idx, ∃ r : ℝ, (m ((c : Thread nD τ).loc main_arg1) : Vec Ideal S8x4096x3 .f32) i = (r : EReal))

include hx hy in
/-- On real inputs the kernel's distance between point `n` of `x` and point `mm` of `y` is the reference's. -/
theorem dist_eq (b : Fin 8) (n mm : Fin 4096) :
    Cert.KernelIdeal.Arrays.dist (V m c main_arg0) (V m c main_v0) b n mm
      = Chamfer.dRef (fun d => (m ((c : Thread nD τ).loc main_arg0) : Vec Ideal S8x4096x3 .f32) (ix3 b n d))
          (fun d => (m ((c : Thread nD τ).loc main_arg1) : Vec Ideal S8x4096x3 .f32) (ix3 b mm d)) := by
  unfold Cert.KernelIdeal.Arrays.dist
  have h1 : (fun d : Fin 3 => (V m c main_arg0 : Vec Ideal S8x4096x3 .f32) (ix3 b n d))
      = fun d => (m ((c : Thread nD τ).loc main_arg0) : Vec Ideal S8x4096x3 .f32) (ix3 b n d) := by
    rw [V_main_arg0]
  have h2 : (fun d : Fin 3 => (V m c main_v0 : Vec Ideal S8x3x4096 .f32) (ix3 b d mm))
      = fun d => (m ((c : Thread nD τ).loc main_arg1) : Vec Ideal S8x4096x3 .f32) (ix3 b mm d) :=
    funext fun d => Cert.KernelIdeal.HostSide.V_v0_apply m c b d mm
  rw [h1, h2]
  exact Chamfer.dKer_eq_dRef _ _ (fun d => hx _) (fun d => hy _)

include hx hy in
/-- The first output array, its unit axis dropped, is the reference's array of minima over `y`. -/
theorem rows_eq (h : S8x4096x1.ShapeCasts S8x4096) :
    shapeCast S8x4096 (Cert.KernelIdeal.Arrays.rowMins (V m c main_arg0) (V m c main_v0)) h
      = Cert.ReferenceIdeal.Read.val_main_v15 (F := Ideal) (m ((c : Thread nD τ).loc main_arg0)) (m ((c : Thread nD τ).loc main_arg1)) := by
  funext i
  obtain ⟨b, n, rfl⟩ : ∃ (b : Fin 8) (n : Fin 4096), i = ix2 b n := ⟨i 0, i 1, eq_ix2 i⟩
  rw [Cert.ReferenceIdeal.RefValue.v15_apply]
  refine (shapeCast_apply _ h (ix2 b n) (ix3 b n (0 : Fin 1)) (by
    rw [Shape.rowMajor_val_three, Shape.rowMajor_val_two]
    show (b.val * 4096 + n.val) * 1 + 0 = b.val * 4096 + n.val
    omega)).trans ?_
  unfold Cert.KernelIdeal.Arrays.rowMins
  exact congrArg (Finset.inf Finset.univ) (funext fun mm => dist_eq m c hx hy b n mm)

include hx hy in
/-- The second output array, its unit axis dropped, is the reference's array of minima over `x`. -/
theorem cols_eq (h : S8x1x4096.ShapeCasts S8x4096) :
    shapeCast S8x4096 (Cert.KernelIdeal.Arrays.colMins (V m c main_arg0) (V m c main_v0)) h
      = Cert.ReferenceIdeal.Read.val_main_v16 (F := Ideal) (m ((c : Thread nD τ).loc main_arg0)) (m ((c : Thread nD τ).loc main_arg1)) := by
  funext i
  obtain ⟨b, mm, rfl⟩ : ∃ (b : Fin 8) (mm : Fin 4096), i = ix2 b mm := ⟨i 0, i 1, eq_ix2 i⟩
  rw [Cert.ReferenceIdeal.RefValue.v16_apply]
  refine (shapeCast_apply _ h (ix2 b mm) (ix3 b (0 : Fin 1) mm) (by
    rw [Shape.rowMajor_val_three, Shape.rowMajor_val_two]
    show (b.val * 1 + 0) * 4096 + mm.val = b.val * 4096 + mm.val
    omega)).trans ?_
  unfold Cert.KernelIdeal.Arrays.colMins
  exact congrArg (Finset.inf Finset.univ) (funext fun n => dist_eq m c hx hy b n mm)

end Cert.Proof.Bridge

end
-- ==== Proof.Finite.lean ====
/-
  The precondition on the inputs says that every coordinate of both point clouds has its absolute value strictly
  below +∞. An extended real a whose absolute value max a (−a) is below +∞ is neither +∞ (which is not below
  itself) nor −∞ (whose negation is +∞), so it is a real number. Hence every coordinate of both clouds is real.
-/
import proofs.«101057_j25074019074108_2_alg».proof.Defs
import Idealize.ShloMosaic.Lib.ReduceAll
import Idealize.ShloMosaic.Lib.ValueIdx
import Idealize.ShloMosaic.PureOps.Ideal.Laws

noncomputable section

namespace Cert.Proof.Finite

open Idealize.ShloMosaic Idealize.ShloMosaic.ValueIdx

/-- The scalar shape has exactly one index: it has no axes to give a coordinate on. -/
instance : Subsingleton Cert.Pre_finite_inputs.S_.Idx := ⟨fun a b => funext fun d => d.elim0⟩

/-- An extended real whose absolute value max a (−a) compares strictly below +∞ is a real: at a = +∞ the absolute
    value is +∞, and at a = −∞ it is −(−∞) = +∞, neither of which is strictly below +∞. -/
theorem real_of_abs_lt_top (a : EReal)
    (h : Ideal.cmp .olt (max a (-a)) (Ideal.ofBits .f32 0x7F800000#32) = 1#1) : ∃ r : ℝ, a = (r : EReal) := by
  have hinf : Ideal.ofBits .f32 0x7F800000#32 = (⊤ : EReal) := by simp [Ideal.ofBits, Ideal.ieee]
  rw [hinf] at h
  induction a using EReal.rec with
  | bot => simp [Ideal.cmp] at h
  | top => simp [Ideal.cmp] at h
  | coe r => exact ⟨r, rfl⟩

/-- Under the precondition every coordinate of the first cloud and every coordinate of the second is a real: the
    precondition is the conjunction of three all-quantified comparisons |·| < +∞, one per input, each a reduction by
    conjunction from true, and a conjunction that holds had every conjunct hold. -/
theorem real_of_pre [Cert.Pre_finite_inputs.Facts]
    (x y : (⟨Cert.Pre_finite_inputs.S8x4096x3, .f32⟩ : BufTy).Contents (Elt Ideal))
    (w : (⟨Cert.Pre_finite_inputs.S8, .f32⟩ : BufTy).Contents (Elt Ideal))
    (h : Cert.Pre_finite_inputs.fn (F := Ideal) x y w = fun _ => 1#1) :
    (∀ i, ∃ r : ℝ, x i = (r : EReal)) ∧ (∀ i, ∃ r : ℝ, y i = (r : EReal)) := by
  have e := congrFun h ix0
  unfold Cert.Pre_finite_inputs.fn at e
  simp only [andi] at e
  rw [IntOp.andi_eq_one, IntOp.andi_eq_one] at e
  obtain ⟨⟨ex, ey⟩, -⟩ := e
  refine ⟨fun i => ?_, fun i => ?_⟩
  · have hx := Host.reduce_andi_all _ _ _ _ _ ex i
    simp only [cmpf, Host.absf, broadcastInDim, constant, Ideal.hostAbsf_def, Ideal.absf_def, Ideal.cmpf_def,
      Ideal.ofBits_def] at hx
    exact real_of_abs_lt_top _ hx
  · have hy := Host.reduce_andi_all _ _ _ _ _ ey i
    simp only [cmpf, Host.absf, broadcastInDim, constant, Ideal.hostAbsf_def, Ideal.absf_def, Ideal.cmpf_def,
      Ideal.ofBits_def] at hy
    exact real_of_abs_lt_top _ hy

end Cert.Proof.Finite

end
-- ==== Proof.lean ====
/-
  Nearest-neighbour squared distances between two batches of 4096 points in ℝ³, weighted and averaged: the tiled program
  against its plain reference, at the exact extended reals.

  Both programs form, per batch, the 4096 × 4096 array `max (|x|² + |y|² − 2 x·y) 0`, take its minimum along each row and
  along each column, average each family of minima, add the two averages, weight the batches and average again.  The
  reference does this on whole arrays.  The tiled program never holds the 4096 × 4096 array: per tile of 1024 points `x` it
  walks the points `y` in eight chunks of 512, keeping a running row minimum in a scratch buffer and a running column
  minimum in an output block carried across the four tiles of a batch; it folds the factor `−2` into `y`'s coordinates
  and adds the three products of the inner product one after the other.

  The proof reads the tiled program's two output arrays as the row and the column minima of its own arrangement of the
  distance (a minimum is a greatest lower bound, so chunks and tiles may be taken in any grouping), identifies that
  arrangement with the reference's on real inputs by distributivity — the one place the inputs' finiteness is used —,
  and carries the common tail of averages as one function applied to equal arguments.
-/
import proofs.«101057_j25074019074108_2_alg».proof.Defs
import proofs.«101057_j25074019074108_2_alg».proof.Proof.Gen.Kernel
import proofs.«101057_j25074019074108_2_alg».proof.Proof.Gen.Kernel.Skeleton
import proofs.«101057_j25074019074108_2_alg».proof.Proof.Gen.Kernel.Loops
import proofs.«101057_j25074019074108_2_alg».proof.Proof.Gen.Kernel.Launch
import proofs.«101057_j25074019074108_2_alg».proof.Proof.Gen.Kernel.Points
import proofs.«101057_j25074019074108_2_alg».proof.Proof.Gen.Kernel.Frame
import proofs.«101057_j25074019074108_2_alg».proof.Proof.Gen.KernelIdeal
import proofs.«101057_j25074019074108_2_alg».proof.Proof.Gen.KernelIdeal.Skeleton
import proofs.«101057_j25074019074108_2_alg».proof.Proof.Gen.KernelIdeal.Loops
import proofs.«101057_j25074019074108_2_alg».proof.Proof.Gen.KernelIdeal.Launch
import proofs.«101057_j25074019074108_2_alg».proof.Proof.Gen.KernelIdeal.Points
import proofs.«101057_j25074019074108_2_alg».proof.Proof.Gen.KernelIdeal.Frame
import proofs.«101057_j25074019074108_2_alg».proof.Proof.Gen.ReferenceIdeal
import proofs.«101057_j25074019074108_2_alg».proof.Proof.Gen.ReferenceIdeal.Run
import proofs.«101057_j25074019074108_2_alg».proof.Proof.Gen.ReferenceIdeal.Read
import proofs.«101057_j25074019074108_2_alg».proof.Proof.Gen.Pre_finite_inputs
import proofs.«101057_j25074019074108_2_alg».proof.Proof.Arrays
import proofs.«101057_j25074019074108_2_alg».proof.Proof.Bridge
import proofs.«101057_j25074019074108_2_alg».proof.Proof.Finite
import proofs.«101057_j25074019074108_2_alg».proof.Proof.HostSide
import proofs.«101057_j25074019074108_2_alg».proof.Proof.Tail
import Idealize.ShloMosaic.Adequacy
import Idealize.ShloMosaic.Init

noncomputable section

namespace Cert.Proof

open Idealize.ShloMosaic Idealize.ShloMosaic.TcCoe Idealize.SL.Sem

/-- The tiled program runs and leaves its arguments as they were. -/
theorem frame_k [Cert.Kernel.Facts] [Cert.Pre_finite_inputs.Facts] : Cert.frame_Kernel :=
  fun m ρ _ => Cert.Kernel.Gen.frame m ρ

/-- So does its reading at the exact extended reals. -/
theorem frame_ki [Cert.KernelIdeal.Facts] [Cert.Pre_finite_inputs.Facts] : Cert.frame_KernelIdeal :=
  fun m ρ _ => Cert.KernelIdeal.Gen.frame m ρ

/-- And the reference: its run, with the result dropped. -/
theorem frame_ri [Cert.ReferenceIdeal.Facts] [Cert.Pre_finite_inputs.Facts] : Cert.frame_ReferenceIdeal :=
  fun m ρ _ => (θ_run Cert.ReferenceIdeal.defs _ _).mono (fun _ h c => (h c).2)
    (Cert.ReferenceIdeal.Value.run (F := Ideal) m ρ)

/-- The tiled program's run at the extended reals, its result named: the common tail applied to the reference's two
    arrays of minima and the weights — the output arrays are the row and the column minima of the tiled arrangement of
    the distance, which on finite inputs are the reference's. -/
theorem kernel_run [Cert.KernelIdeal.Facts] [Cert.Pre_finite_inputs.Facts]
    (m : (ℓ : Loc Cert.KernelIdeal.nD Cert.KernelIdeal.τ Cert.KernelIdeal.sig) → Buf (Elt Ideal) ℓ)
    (ρ : Dev Cert.KernelIdeal.nD → PrngReg) (hpre : Cert.Pre_KernelIdeal m) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v13)
            = Cert.Proof.Tail.tail
                (Cert.ReferenceIdeal.Read.val_main_v15 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)))
                (Cert.ReferenceIdeal.Read.val_main_v16 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)))
                (m ((c.tc : Thread Cert.KernelIdeal.nD Cert.KernelIdeal.τ).loc Cert.KernelIdeal.main_arg2))
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)) := by
  refine (θ_run (Cert.KernelIdeal.defs (F := Ideal)) _ _).mono (fun r h c => ⟨?_,
      ((h c).1 0).trans (((Cert.KernelIdeal.Gen.dats m 0 c).arrAt_in 0 rfl _).trans
        ((Cert.KernelIdeal.Gen.A_eq m c 0).trans (Cert.KernelIdeal.Gen.V_main_arg0 m c))),
      ((h c).2 Cert.KernelIdeal.main_arg1 (Pipeline.mem_restRefs_of Cert.KernelIdeal.main_arg1 (by decide) (by decide))).trans
        (Cert.KernelIdeal.Gen.W_main_arg1 m (Cert.KernelIdeal.Gen.dats m) c),
      ((h c).2 Cert.KernelIdeal.main_arg2 (Pipeline.mem_restRefs_of Cert.KernelIdeal.main_arg2 (by decide) (by decide))).trans
        (Cert.KernelIdeal.Gen.W_main_arg2 m (Cert.KernelIdeal.Gen.dats m) c)⟩)
    (Cert.KernelIdeal.Gen.run_main (F := Ideal) m ρ)
  obtain ⟨hx, hy⟩ := Cert.Proof.Finite.real_of_pre _ _ _ (hpre c)
  rw [(h c).2 Cert.KernelIdeal.main_v13 (Pipeline.mem_restRefs_of Cert.KernelIdeal.main_v13 (by decide) (by decide)),
    Cert.KernelIdeal.HostSide.result_eq_tail m c, Cert.KernelIdeal.Arrays.final_rows m c, Cert.KernelIdeal.Arrays.final_cols m c,
    Cert.Proof.Bridge.rows_eq m c hx hy, Cert.Proof.Bridge.cols_eq m c hx hy]

/-- From memories that agree on the arguments the two programs end with equal results: the reference's result is the
    common tail of its own two arrays of minima (its run, read), and those are what the tiled program's run ends with. -/
theorem algebraic [Cert.KernelIdeal.Facts] [Cert.ReferenceIdeal.Facts] [Cert.Pre_finite_inputs.Facts] :
    Cert.algebraic_KernelIdeal_ReferenceIdeal := by
  intro m ρ m' ρ' hpre hagree
  refine ⟨_, kernel_run m ρ hpre, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v26_eq, Cert.Proof.Tail.ref_tail, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
